-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S12288x4096 : Shape := ⟨2, ![12288, 4096]⟩
abbrev S12288 : Shape := ⟨1, ![12288]⟩
abbrev S393216x1 : Shape := ⟨2, ![393216, 1]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S12288 : S_.BroadcastsInDim S12288 (![] : Fin 0 → Fin S12288.rank)
  reducesTo_S12288_S_d0 : S12288.ReducesTo [0] S_
  bcast_S_S393216x1 : S_.BroadcastsInDim S393216x1 (![] : Fin 0 → Fin S393216x1.rank)
  reducesTo_S393216x1_S_d0_1 : S393216x1.ReducesTo [0, 1] S_

variable [Facts]

def fn_part2 {F : FTy → Type} [FloatOps F] (main_arg7 : FVec F S393216x1 .f32) (main_v33 : IVec S_ 1) : IVec S_ 1 :=
  let main_v34 : FVec F S393216x1 .f32 := Host.absf main_arg7
  let main_cst_12 : FVec F S_ .f32 := constant S_ .f32 0x7F800000#32
  let main_v35 : FVec F S393216x1 .f32 := broadcastInDim S393216x1 ![] bcast_S_S393216x1 main_cst_12
  let main_v36 : IVec S393216x1 1 := cmpf .olt main_v34 main_v35
  let main_c_13 : IVec S_ 1 := constantI S_ 1 1#1
  let main_v37 : IVec S_ 1 := (fun x v => Host.reduce IntOp.andi x v reducesTo_S393216x1_S_d0_1 h_S_) main_v36 main_c_13
  let main_v38 : IVec S_ 1 := andi main_v33 main_v37
  main_v38

def fn_part1 {F : FTy → Type} [FloatOps F] (main_arg4 : FVec F S393216x1 .f32) (main_arg5 : FVec F S393216x1 .f32) (main_arg6 : FVec F S393216x1 .f32) (main_arg7 : FVec F S393216x1 .f32) (main_v13 : IVec S_ 1) (main_v16 : IVec S393216x1 1) : IVec S_ 1 :=
  let main_c_5 : IVec S_ 1 := constantI S_ 1 1#1
  let main_v17 : IVec S_ 1 := (fun x v => Host.reduce IntOp.andi x v reducesTo_S393216x1_S_d0_1 h_S_) main_v16 main_c_5
  let main_v18 : IVec S_ 1 := andi main_v13 main_v17
  let main_v19 : FVec F S393216x1 .f32 := Host.absf main_arg4
  let main_cst_6 : FVec F S_ .f32 := constant S_ .f32 0x7F800000#32
  let main_v20 : FVec F S393216x1 .f32 := broadcastInDim S393216x1 ![] bcast_S_S393216x1 main_cst_6
  let main_v21 : IVec S393216x1 1 := cmpf .olt main_v19 main_v20
  let main_c_7 : IVec S_ 1 := constantI S_ 1 1#1
  let main_v22 : IVec S_ 1 := (fun x v => Host.reduce IntOp.andi x v reducesTo_S393216x1_S_d0_1 h_S_) main_v21 main_c_7
  let main_v23 : IVec S_ 1 := andi main_v18 main_v22
  let main_v24 : FVec F S393216x1 .f32 := Host.absf main_arg5
  let main_cst_8 : FVec F S_ .f32 := constant S_ .f32 0x7F800000#32
  let main_v25 : FVec F S393216x1 .f32 := broadcastInDim S393216x1 ![] bcast_S_S393216x1 main_cst_8
  let main_v26 : IVec S393216x1 1 := cmpf .olt main_v24 main_v25
  let main_c_9 : IVec S_ 1 := constantI S_ 1 1#1
  let main_v27 : IVec S_ 1 := (fun x v => Host.reduce IntOp.andi x v reducesTo_S393216x1_S_d0_1 h_S_) main_v26 main_c_9
  let main_v28 : IVec S_ 1 := andi main_v23 main_v27
  let main_v29 : FVec F S393216x1 .f32 := Host.absf main_arg6
  let main_cst_10 : FVec F S_ .f32 := constant S_ .f32 0x7F800000#32
  let main_v30 : FVec F S393216x1 .f32 := broadcastInDim S393216x1 ![] bcast_S_S393216x1 main_cst_10
  let main_v31 : IVec S393216x1 1 := cmpf .olt main_v29 main_v30
  let main_c_11 : IVec S_ 1 := constantI S_ 1 1#1
  let main_v32 : IVec S_ 1 := (fun x v => Host.reduce IntOp.andi x v reducesTo_S393216x1_S_d0_1 h_S_) main_v31 main_c_11
  let main_v33 : IVec S_ 1 := andi main_v28 main_v32
  fn_part2 (F := F) main_arg7 main_v33

def fn {F : FTy → Type} [FloatOps F] (main_arg0 : FVec F S16x4096 .f32) (main_arg1 : FVec F S12288x4096 .f32) (main_arg2 : FVec F S12288 .f32) (main_arg3 : FVec F S393216x1 .f32) (main_arg4 : FVec F S393216x1 .f32) (main_arg5 : FVec F S393216x1 .f32) (main_arg6 : FVec F S393216x1 .f32) (main_arg7 : FVec F S393216x1 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S12288 .f32 := Host.absf main_arg2
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  let main_v14 : FVec F S393216x1 .f32 := Host.absf main_arg3
  let main_cst_4 : FVec F S_ .f32 := constant S_ .f32 0x7F800000#32
  let main_v15 : FVec F S393216x1 .f32 := broadcastInDim S393216x1 ![] bcast_S_S393216x1 main_cst_4
  let main_v16 : IVec S393216x1 1 := cmpf .olt main_v14 main_v15
  fn_part1 (F := F) main_arg4 main_arg5 main_arg6 main_arg7 main_v13 main_v16
-- ==== Kernel.lean ====
abbrev S16x4096 : Shape := ⟨2, ![16, 4096]⟩
abbrev S12288x4096 : Shape := ⟨2, ![12288, 4096]⟩
abbrev S12288 : Shape := ⟨1, ![12288]⟩
abbrev S393216x1 : Shape := ⟨2, ![393216, 1]⟩
abbrev S12288x32 : Shape := ⟨2, ![12288, 32]⟩
abbrev S1x12288 : Shape := ⟨2, ![1, 12288]⟩
abbrev S16x12288 : Shape := ⟨2, ![16, 12288]⟩
abbrev S768x4096 : Shape := ⟨2, ![768, 4096]⟩
abbrev S768x32 : Shape := ⟨2, ![768, 32]⟩
abbrev S1x768 : Shape := ⟨2, ![1, 768]⟩
abbrev S16x768 : Shape := ⟨2, ![16, 768]⟩
abbrev S768x128 : Shape := ⟨2, ![768, 128]⟩
abbrev S768x1 : Shape := ⟨2, ![768, 1]⟩

abbrev nBuf : Space → Nat
  | .hbm => 15
  | .vmem => 18
  | .smem => 0
  | _ => 0

abbrev bufTy : (tb : Table) → Fin (tcTables nBuf tb) → BufTy
  | .hbm, ⟨0, _⟩ => ⟨S16x4096, .f32⟩
  | .hbm, ⟨1, _⟩ => ⟨S12288x4096, .f32⟩
  | .hbm, ⟨2, _⟩ => ⟨S12288, .f32⟩
  | .hbm, ⟨3, _⟩ => ⟨S393216x1, .f32⟩
  | .hbm, ⟨4, _⟩ => ⟨S393216x1, .f32⟩
  | .hbm, ⟨5, _⟩ => ⟨S393216x1, .f32⟩
  | .hbm, ⟨6, _⟩ => ⟨S393216x1, .f32⟩
  | .hbm, ⟨7, _⟩ => ⟨S393216x1, .f32⟩
  | .hbm, ⟨8, _⟩ => ⟨S12288x32, .f32⟩
  | .hbm, ⟨9, _⟩ => ⟨S12288x32, .f32⟩
  | .hbm, ⟨10, _⟩ => ⟨S12288x32, .f32⟩
  | .hbm, ⟨11, _⟩ => ⟨S12288x32, .f32⟩
  | .hbm, ⟨12, _⟩ => ⟨S12288x32, .f32⟩
  | .hbm, ⟨13, _⟩ => ⟨S1x12288, .f32⟩
  | .hbm, ⟨14, _⟩ => ⟨S16x12288, .f32⟩
  | .local _ .vmem, ⟨0, _⟩ => ⟨S16x4096, .f32⟩
  | .local _ .vmem, ⟨1, _⟩ => ⟨S768x4096, .f32⟩
  | .local _ .vmem, ⟨2, _⟩ => ⟨S768x4096, .f32⟩
  | .local _ .vmem, ⟨3, _⟩ => ⟨S768x32, .f32⟩
  | .local _ .vmem, ⟨4, _⟩ => ⟨S768x32, .f32⟩
  | .local _ .vmem, ⟨5, _⟩ => ⟨S768x32, .f32⟩
  | .local _ .vmem, ⟨6, _⟩ => ⟨S768x32, .f32⟩
  | .local _ .vmem, ⟨7, _⟩ => ⟨S768x32, .f32⟩
  | .local _ .vmem, ⟨8, _⟩ => ⟨S768x32, .f32⟩
  | .local _ .vmem, ⟨9, _⟩ => ⟨S768x32, .f32⟩
  | .local _ .vmem, ⟨10, _⟩ => ⟨S768x32, .f32⟩
  | .local _ .vmem, ⟨11, _⟩ => ⟨S768x32, .f32⟩
  | .local _ .vmem, ⟨12, _⟩ => ⟨S768x32, .f32⟩
  | .local _ .vmem, ⟨13, _⟩ => ⟨S1x768, .f32⟩
  | .local _ .vmem, ⟨14, _⟩ => ⟨S1x768, .f32⟩
  | .local _ .vmem, ⟨15, _⟩ => ⟨S16x768, .f32⟩
  | .local _ .vmem, ⟨16, _⟩ => ⟨S16x768, .f32⟩
  | .local _ .vmem, ⟨17, _⟩ => ⟨S768x4096, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S393216x1_S12288x32 : S393216x1.ShapeCasts S12288x32
  shapeCasts_S12288_S1x12288 : S12288.ShapeCasts S1x12288
  inb_S768x4096_S768x128_0_0 : ∀ a, (![0, 0] : Fin 2 → Nat) a + S768x128.size a ≤ S768x4096.size a
  h_S768x128 : 0 < S768x128.numel
  inb_S768x32_S768x1_0_0 : ∀ a, (![0, 0] : Fin 2 → Nat) a + S768x1.size a ≤ S768x32.size a
  h_S768x1 : 0 < S768x1.numel
  shapeCasts_S768x1_S768x1 : S768x1.ShapeCasts S768x1
  broadcasts_S768x1_S768x128 : S768x1.Broadcasts S768x128
  shapeCasts_S768x128_S768x128 : S768x128.ShapeCasts S768x128
  inb_S768x4096_S768x128_0_128 : ∀ a, (![0, 128] : Fin 2 → Nat) a + S768x128.size a ≤ S768x4096.size a
  inb_S768x32_S768x1_0_1 : ∀ a, (![0, 1] : Fin 2 → Nat) a + S768x1.size a ≤ S768x32.size a
  inb_S768x4096_S768x128_0_256 : ∀ a, (![0, 256] : Fin 2 → Nat) a + S768x128.size a ≤ S768x4096.size a
  inb_S768x32_S768x1_0_2 : ∀ a, (![0, 2] : Fin 2 → Nat) a + S768x1.size a ≤ S768x32.size a
  inb_S768x4096_S768x128_0_384 : ∀ a, (![0, 384] : Fin 2 → Nat) a + S768x128.size a ≤ S768x4096.size a
  inb_S768x32_S768x1_0_3 : ∀ a, (![0, 3] : Fin 2 → Nat) a + S768x1.size a ≤ S768x32.size a
  inb_S768x4096_S768x128_0_512 : ∀ a, (![0, 512] : Fin 2 → Nat) a + S768x128.size a ≤ S768x4096.size a
  inb_S768x32_S768x1_0_4 : ∀ a, (![0, 4] : Fin 2 → Nat) a + S768x1.size a ≤ S768x32.size a
  inb_S768x4096_S768x128_0_640 : ∀ a, (![0, 640] : Fin 2 → Nat) a + S768x128.size a ≤ S768x4096.size a
  inb_S768x32_S768x1_0_5 : ∀ a, (![0, 5] : Fin 2 → Nat) a + S768x1.size a ≤ S768x32.size a
  inb_S768x4096_S768x128_0_768 : ∀ a, (![0, 768] : Fin 2 → Nat) a + S768x128.size a ≤ S768x4096.size a
  inb_S768x32_S768x1_0_6 : ∀ a, (![0, 6] : Fin 2 → Nat) a + S768x1.size a ≤ S768x32.size a
  inb_S768x4096_S768x128_0_896 : ∀ a, (![0, 896] : Fin 2 → Nat) a + S768x128.size a ≤ S768x4096.size a
  inb_S768x32_S768x1_0_7 : ∀ a, (![0, 7] : Fin 2 → Nat) a + S768x1.size a ≤ S768x32.size a
  inb_S768x4096_S768x128_0_1024 : ∀ a, (![0, 1024] : Fin 2 → Nat) a + S768x128.size a ≤ S768x4096.size a
  inb_S768x32_S768x1_0_8 : ∀ a, (![0, 8] : Fin 2 → Nat) a + S768x1.size a ≤ S768x32.size a
  inb_S768x4096_S768x128_0_1152 : ∀ a, (![0, 1152] : Fin 2 → Nat) a + S768x128.size a ≤ S768x4096.size a
  inb_S768x32_S768x1_0_9 : ∀ a, (![0, 9] : Fin 2 → Nat) a + S768x1.size a ≤ S768x32.size a
  inb_S768x4096_S768x128_0_1280 : ∀ a, (![0, 1280] : Fin 2 → Nat) a + S768x128.size a ≤ S768x4096.size a
  inb_S768x32_S768x1_0_10 : ∀ a, (![0, 10] : Fin 2 → Nat) a + S768x1.size a ≤ S768x32.size a
  inb_S768x4096_S768x128_0_1408 : ∀ a, (![0, 1408] : Fin 2 → Nat) a + S768x128.size a ≤ S768x4096.size a
  inb_S768x32_S768x1_0_11 : ∀ a, (![0, 11] : Fin 2 → Nat) a + S768x1.size a ≤ S768x32.size a
  inb_S768x4096_S768x128_0_1536 : ∀ a, (![0, 1536] : Fin 2 → Nat) a + S768x128.size a ≤ S768x4096.size a
  inb_S768x32_S768x1_0_12 : ∀ a, (![0, 12] : Fin 2 → Nat) a + S768x1.size a ≤ S768x32.size a
  inb_S768x4096_S768x128_0_1664 : ∀ a, (![0, 1664] : Fin 2 → Nat) a + S768x128.size a ≤ S768x4096.size a
  inb_S768x32_S768x1_0_13 : ∀ a, (![0, 13] : Fin 2 → Nat) a + S768x1.size a ≤ S768x32.size a
  inb_S768x4096_S768x128_0_1792 : ∀ a, (![0, 1792] : Fin 2 → Nat) a + S768x128.size a ≤ S768x4096.size a
  inb_S768x32_S768x1_0_14 : ∀ a, (![0, 14] : Fin 2 → Nat) a + S768x1.size a ≤ S768x32.size a
  inb_S768x4096_S768x128_0_1920 : ∀ a, (![0, 1920] : Fin 2 → Nat) a + S768x128.size a ≤ S768x4096.size a
  inb_S768x32_S768x1_0_15 : ∀ a, (![0, 15] : Fin 2 → Nat) a + S768x1.size a ≤ S768x32.size a
  inb_S768x4096_S768x128_0_2048 : ∀ a, (![0, 2048] : Fin 2 → Nat) a + S768x128.size a ≤ S768x4096.size a
  inb_S768x32_S768x1_0_16 : ∀ a, (![0, 16] : Fin 2 → Nat) a + S768x1.size a ≤ S768x32.size a
  inb_S768x4096_S768x128_0_2176 : ∀ a, (![0, 2176] : Fin 2 → Nat) a + S768x128.size a ≤ S768x4096.size a
  inb_S768x32_S768x1_0_17 : ∀ a, (![0, 17] : Fin 2 → Nat) a + S768x1.size a ≤ S768x32.size a
  inb_S768x4096_S768x128_0_2304 : ∀ a, (![0, 2304] : Fin 2 → Nat) a + S768x128.size a ≤ S768x4096.size a
  inb_S768x32_S768x1_0_18 : ∀ a, (![0, 18] : Fin 2 → Nat) a + S768x1.size a ≤ S768x32.size a
  inb_S768x4096_S768x128_0_2432 : ∀ a, (![0, 2432] : Fin 2 → Nat) a + S768x128.size a ≤ S768x4096.size a
  inb_S768x32_S768x1_0_19 : ∀ a, (![0, 19] : Fin 2 → Nat) a + S768x1.size a ≤ S768x32.size a
  inb_S768x4096_S768x128_0_2560 : ∀ a, (![0, 2560] : Fin 2 → Nat) a + S768x128.size a ≤ S768x4096.size a
  inb_S768x32_S768x1_0_20 : ∀ a, (![0, 20] : Fin 2 → Nat) a + S768x1.size a ≤ S768x32.size a
  inb_S768x4096_S768x128_0_2688 : ∀ a, (![0, 2688] : Fin 2 → Nat) a + S768x128.size a ≤ S768x4096.size a
  inb_S768x32_S768x1_0_21 : ∀ a, (![0, 21] : Fin 2 → Nat) a + S768x1.size a ≤ S768x32.size a
  inb_S768x4096_S768x128_0_2816 : ∀ a, (![0, 2816] : Fin 2 → Nat) a + S768x128.size a ≤ S768x4096.size a
  inb_S768x32_S768x1_0_22 : ∀ a, (![0, 22] : Fin 2 → Nat) a + S768x1.size a ≤ S768x32.size a
  inb_S768x4096_S768x128_0_2944 : ∀ a, (![0, 2944] : Fin 2 → Nat) a + S768x128.size a ≤ S768x4096.size a
  inb_S768x32_S768x1_0_23 : ∀ a, (![0, 23] : Fin 2 → Nat) a + S768x1.size a ≤ S768x32.size a
  inb_S768x4096_S768x128_0_3072 : ∀ a, (![0, 3072] : Fin 2 → Nat) a + S768x128.size a ≤ S768x4096.size a
  inb_S768x32_S768x1_0_24 : ∀ a, (![0, 24] : Fin 2 → Nat) a + S768x1.size a ≤ S768x32.size a
  inb_S768x4096_S768x128_0_3200 : ∀ a, (![0, 3200] : Fin 2 → Nat) a + S768x128.size a ≤ S768x4096.size a
  inb_S768x32_S768x1_0_25 : ∀ a, (![0, 25] : Fin 2 → Nat) a + S768x1.size a ≤ S768x32.size a
  inb_S768x4096_S768x128_0_3328 : ∀ a, (![0, 3328] : Fin 2 → Nat) a + S768x128.size a ≤ S768x4096.size a
  inb_S768x32_S768x1_0_26 : ∀ a, (![0, 26] : Fin 2 → Nat) a + S768x1.size a ≤ S768x32.size a
  inb_S768x4096_S768x128_0_3456 : ∀ a, (![0, 3456] : Fin 2 → Nat) a + S768x128.size a ≤ S768x4096.size a
  inb_S768x32_S768x1_0_27 : ∀ a, (![0, 27] : Fin 2 → Nat) a + S768x1.size a ≤ S768x32.size a
  inb_S768x4096_S768x128_0_3584 : ∀ a, (![0, 3584] : Fin 2 → Nat) a + S768x128.size a ≤ S768x4096.size a
  inb_S768x32_S768x1_0_28 : ∀ a, (![0, 28] : Fin 2 → Nat) a + S768x1.size a ≤ S768x32.size a
  inb_S768x4096_S768x128_0_3712 : ∀ a, (![0, 3712] : Fin 2 → Nat) a + S768x128.size a ≤ S768x4096.size a
  inb_S768x32_S768x1_0_29 : ∀ a, (![0, 29] : Fin 2 → Nat) a + S768x1.size a ≤ S768x32.size a
  inb_S768x4096_S768x128_0_3840 : ∀ a, (![0, 3840] : Fin 2 → Nat) a + S768x128.size a ≤ S768x4096.size a
  inb_S768x32_S768x1_0_30 : ∀ a, (![0, 30] : Fin 2 → Nat) a + S768x1.size a ≤ S768x32.size a
  inb_S768x4096_S768x128_0_3968 : ∀ a, (![0, 3968] : Fin 2 → Nat) a + S768x128.size a ≤ S768x4096.size a
  inb_S768x32_S768x1_0_31 : ∀ a, (![0, 31] : Fin 2 → Nat) a + S768x1.size a ≤ S768x32.size a
  inb_S16x4096_S16x4096_0_0 : ∀ a, (![0, 0] : Fin 2 → Nat) a + S16x4096.size a ≤ S16x4096.size a
  h_S16x4096 : 0 < S16x4096.numel
  inb_S768x4096_S768x4096_0_0 : ∀ a, (![0, 0] : Fin 2 → Nat) a + S768x4096.size a ≤ S768x4096.size a
  h_S768x4096 : 0 < S768x4096.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S16x768 : S1x768.Broadcasts S16x768
  inb_S16x768_S16x768_0_0 : ∀ a, (![0, 0] : Fin 2 → Nat) a + S16x768.size a ≤ S16x768.size a
  h_S16x768 : 0 < S16x768.numel
  dot_S16x4096_S768x4096_S16x768_1_1_0_0_n_n_wf : DotDims.WF S16x4096 S768x4096 S16x768 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x4096.size a ≤ S12288x4096.size a
  hwx0_1 : ∀ i : grid0.Coords, EltTy.bits .f32 = 32 ∨ (Rect.block (s := S12288x4096) S768x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S768x32.size a ≤ S12288x32.size a
  hwx0_2 : ∀ i : grid0.Coords, EltTy.bits .f32 = 32 ∨ (Rect.block (s := S12288x32) S768x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S768x32.size a ≤ S12288x32.size a
  hwx0_3 : ∀ i : grid0.Coords, EltTy.bits .f32 = 32 ∨ (Rect.block (s := S12288x32) S768x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S768x32.size a ≤ S12288x32.size a
  hwx0_4 : ∀ i : grid0.Coords, EltTy.bits .f32 = 32 ∨ (Rect.block (s := S12288x32) S768x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S768x32.size a ≤ S12288x32.size a
  hwx0_5 : ∀ i : grid0.Coords, EltTy.bits .f32 = 32 ∨ (Rect.block (s := S12288x32) S768x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S768x32.size a ≤ S12288x32.size a
  hwx0_6 : ∀ i : grid0.Coords, EltTy.bits .f32 = 32 ∨ (Rect.block (s := S12288x32) S768x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x12288.size a
  hwx0_7 : ∀ i : grid0.Coords, EltTy.bits .f32 = 32 ∨ (Rect.block (s := S1x12288) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x768.size a ≤ S16x12288.size a
  hwx0_8 : ∀ i : grid0.Coords, EltTy.bits .f32 = 32 ∨ (Rect.block (s := S16x12288) S16x768.size (cc0_transform_8 i) (hinb0_8 i)).WholeWords (EltTy.packing .f32)

variable [Facts₀]

def dot_S16x4096_S768x4096_S16x768_1_1_0_0_n_n : DotDims S16x4096 S768x4096 S16x768 where
  lhsContracting := [1]
  rhsContracting := [1]
  lhsNonContracting := [0]
  rhsNonContracting := [0]
  lhsBatch := []
  rhsBatch := []
  wf := dot_S16x4096_S768x4096_S16x768_1_1_0_0_n_n_wf

abbrev win0_0 : Pipeline.Window sig grid0 :=
  Pipeline.Window.ofSpec (Memref.whole main_arg0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S768x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S768x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S768x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x768.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S16x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x4096 : Shape := ⟨2, ![16, 4096]⟩
abbrev S12288x4096 : Shape := ⟨2, ![12288, 4096]⟩
abbrev S12288 : Shape := ⟨1, ![12288]⟩
abbrev S393216x1 : Shape := ⟨2, ![393216, 1]⟩
abbrev S393216x128 : Shape := ⟨2, ![393216, 128]⟩
abbrev S_ : Shape := ⟨0, ![]⟩
abbrev S16x12288 : Shape := ⟨2, ![16, 12288]⟩
abbrev S1x12288 : Shape := ⟨2, ![1, 12288]⟩

abbrev nBuf : Space → Nat
  | .hbm => 46
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S12288x4096, .f32⟩
  | .hbm, ⟨2, _⟩ => ⟨S12288, .f32⟩
  | .hbm, ⟨3, _⟩ => ⟨S393216x1, .f32⟩
  | .hbm, ⟨4, _⟩ => ⟨S393216x1, .f32⟩
  | .hbm, ⟨5, _⟩ => ⟨S393216x1, .f32⟩
  | .hbm, ⟨6, _⟩ => ⟨S393216x1, .f32⟩
  | .hbm, ⟨7, _⟩ => ⟨S393216x1, .f32⟩
  | .hbm, ⟨8, _⟩ => ⟨S393216x1, .f32⟩
  | .hbm, ⟨9, _⟩ => ⟨S393216x1, .f32⟩
  | .hbm, ⟨10, _⟩ => ⟨S393216x1, .f32⟩
  | .hbm, ⟨11, _⟩ => ⟨S393216x1, .f32⟩
  | .hbm, ⟨12, _⟩ => ⟨S393216x128, .f32⟩
  | .hbm, ⟨13, _⟩ => ⟨S393216x128, .f32⟩
  | .hbm, ⟨14, _⟩ => ⟨S393216x128, .f32⟩
  | .hbm, ⟨15, _⟩ => ⟨S393216x128, .f32⟩
  | .hbm, ⟨16, _⟩ => ⟨S393216x128, .f32⟩
  | .hbm, ⟨17, _⟩ => ⟨S393216x128, .f32⟩
  | .hbm, ⟨18, _⟩ => ⟨S393216x128, .f32⟩
  | .hbm, ⟨19, _⟩ => ⟨S393216x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S393216x128, .f32⟩
  | .hbm, ⟨24, _⟩ => ⟨S393216x128, .f32⟩
  | .hbm, ⟨25, _⟩ => ⟨S_, .f32⟩
  | .hbm, ⟨26, _⟩ => ⟨S393216x128, .f32⟩
  | .hbm, ⟨27, _⟩ => ⟨S393216x128, .f32⟩
  | .hbm, ⟨28, _⟩ => ⟨S393216x128, .f32⟩
  | .hbm, ⟨29, _⟩ => ⟨S393216x128, .f32⟩
  | .hbm, ⟨30, _⟩ => ⟨S393216x1, .f32⟩
  | .hbm, ⟨31, _⟩ => ⟨S393216x1, .f32⟩
  | .hbm, ⟨32, _⟩ => ⟨S393216x1, .f32⟩
  | .hbm, ⟨33, _⟩ => ⟨S393216x1, .f32⟩
  | .hbm, ⟨34, _⟩ => ⟨S393216x1, .f32⟩
  | .hbm, ⟨35, _⟩ => ⟨S393216x128, .f32⟩
  | .hbm, ⟨36, _⟩ => ⟨S393216x128, .f32⟩
  | .hbm, ⟨37, _⟩ => ⟨S393216x128, .f32⟩
  | .hbm, ⟨38, _⟩ => ⟨S393216x128, .f32⟩
  | .hbm, ⟨39, _⟩ => ⟨S393216x128, .f32⟩
  | .hbm, ⟨40, _⟩ => ⟨S393216x128, .f32⟩
  | .hbm, ⟨41, _⟩ => ⟨S12288x4096, .f32⟩
  | .hbm, ⟨42, _⟩ => ⟨S16x12288, .f32⟩
  | .hbm, ⟨43, _⟩ => ⟨S1x12288, .f32⟩
  | .hbm, ⟨44, _⟩ => ⟨S16x12288, .f32⟩
  | .hbm, ⟨45, _⟩ => ⟨S16x12288, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_cst_0 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call3_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  shapeCasts_S12288x4096_S393216x128 : S12288x4096.ShapeCasts S393216x128
  bcast_S393216x1_S393216x128_0_1 : S393216x1.BroadcastsInDim S393216x128 (![0, 1] : Fin 2 → Fin S393216x128.rank)
  bcast_S_S393216x128 : S_.BroadcastsInDim S393216x128 (![] : Fin 0 → Fin S393216x128.rank)
  shapeCasts_S393216x128_S12288x4096 : S393216x128.ShapeCasts S12288x4096
  bcast_S12288_S1x12288_1 : S12288.BroadcastsInDim S1x12288 (![1] : Fin 1 → Fin S1x12288.rank)
  bcast_S1x12288_S16x12288_0_1 : S1x12288.BroadcastsInDim S16x12288 (![0, 1] : Fin 2 → Fin S16x12288.rank)
  dot_S16x4096_S12288x4096_S16x12288_1_1_0_0_n_n_wf : DotDims.WF S16x4096 S12288x4096 S16x12288 [1] [1] [0] [0] [] []

variable [Facts₀]

def dot_S16x4096_S12288x4096_S16x12288_1_1_0_0_n_n : DotDims S16x4096 S12288x4096 S16x12288 where
  lhsContracting := [1]
  rhsContracting := [1]
  lhsNonContracting := [0]
  rhsNonContracting := [0]
  lhsBatch := []
  rhsBatch := []
  wf := dot_S16x4096_S12288x4096_S16x12288_1_1_0_0_n_n_wf

class Facts : Prop extends Facts₀ where

variable [Facts]
-- ==== Proof.Dequant.lean ====
/-
  The per-element law of the fake-quantised weight.  For one weight `w` and its group's five
  parameters (scale `s`, zero point `z`, zero-point shift `dz`, and the scale's clamp bounds
  `lo`, `hi`) both programs compute

      c   = clip(s, lo, hi)
      q   = clip(round(w / c + z), 0, 15)
      out = (q - z) * c - clip(dz, -c, c)

  but they spell it differently.  The kernel multiplies by ONE reciprocal `1 / c`; the reference
  divides, and it writes every clip and the rounding in the straight-through form
  `a + (f a - a)`.  On real numbers the straight-through form is `f a`, and for `c ≠ 0` the product
  with the reciprocal is the quotient.  For `c = 0` the two quotients differ (the kernel's `w * (1/0)`
  and the reference's `w / 0` are infinities of `w`'s sign, or junk at `w = 0`) — but the quantised
  value is then multiplied by `c = 0`, and the shift is clipped into `[-0, 0]`, so both sides are `0`.
-/
import Idealize.ShloMosaic.PureOps.Ideal.Laws

noncomputable section

namespace Cert.Quant

open Idealize.ShloMosaic

/-- The three float literals of the two programs. -/
abbrev wOne : EReal := Ideal.ofBits .f32 0x3F800000#32
abbrev wZero : EReal := Ideal.ofBits .f32 0x00000000#32
abbrev wQmax : EReal := Ideal.ofBits .f32 0x41700000#32

theorem wOne_eq : wOne = ((1 : ℝ) : EReal) := by
  simp [wOne, Ideal.ofBits, Ideal.ieee]
  rw [← EReal.coe_mul, ← EReal.coe_one]
  exact congrArg _ (by norm_num)

theorem wZero_eq : wZero = ((0 : ℝ) : EReal) := by
  simp [wZero, Ideal.ofBits, Ideal.ieee]

theorem wQmax_eq : wQmax = ((15 : ℝ) : EReal) := by
  simp [wQmax, Ideal.ofBits, Ideal.ieee]
  rw [← EReal.coe_mul]
  exact congrArg _ (by norm_num)

/-- The kernel's spelling: one reciprocal per group, plain clips. -/
def kernelDq (w s z dz lo hi : EReal) : EReal :=
  (min wQmax (max wZero (Ideal.liftRound Ideal.roundHalfEven (w * Ideal.div wOne (min hi (max lo s)) + z))) - z)
      * min hi (max lo s)
    - min (min hi (max lo s)) (max (wZero - min hi (max lo s)) dz)

/-- The reference's scale: the clip in straight-through form. -/
def refScale (s lo hi : EReal) : EReal := s + (min hi (max lo s) - s)

/-- The reference's pre-rounding value. -/
def refPre (w s z lo hi : EReal) : EReal := Ideal.div w (refScale s lo hi) + z

/-- The reference's rounded value, straight-through. -/
def refRound (w s z lo hi : EReal) : EReal :=
  refPre w s z lo hi + (Ideal.liftRound Ideal.roundHalfEven (refPre w s z lo hi) - refPre w s z lo hi)

/-- The reference's spelling: a quotient, every clip and the rounding straight-through. -/
def refDq (w s z dz lo hi : EReal) : EReal :=
  (refRound w s z lo hi + (min wQmax (max wZero (refRound w s z lo hi)) - refRound w s z lo hi) - z)
      * refScale s lo hi
    - (dz + (min (refScale s lo hi) (max (-refScale s lo hi) dz) - dz))

/-- The coercion of the reals into the extended reals preserves `min` and `max`. -/
theorem coe_min (a b : ℝ) : ((min a b : ℝ) : EReal) = min (a : EReal) (b : EReal) :=
  EReal.coe_strictMono.monotone.map_min
theorem coe_max (a b : ℝ) : ((max a b : ℝ) : EReal) = max (a : EReal) (b : EReal) :=
  EReal.coe_strictMono.monotone.map_max

/-- On real numbers the straight-through form `a + (b - a)` is `b`. -/
theorem straight_through (a b : ℝ) : (a : EReal) + ((b : EReal) - (a : EReal)) = (b : EReal) := by
  rw [← EReal.coe_sub, ← EReal.coe_add]
  exact congrArg _ (by ring)

/-- On finite inputs the two spellings agree. -/
theorem kernelDq_eq_refDq (w s z dz lo hi : ℝ) :
    kernelDq w s z dz lo hi = refDq w s z dz lo hi := by
  have hclip : min (hi : EReal) (max (lo : EReal) (s : EReal)) = ((min hi (max lo s) : ℝ) : EReal) := by
    rw [coe_min, coe_max]
  have hsc : refScale s lo hi = ((min hi (max lo s) : ℝ) : EReal) := by
    unfold refScale; rw [hclip, straight_through]
  unfold kernelDq refDq refRound refPre
  rw [hsc, hclip, wOne_eq, wZero_eq, wQmax_eq]
  generalize min hi (max lo s) = c
  by_cases hc : c = 0
  · subst hc
    simp only [EReal.coe_zero, mul_zero, sub_zero, neg_zero]
    have h0 : min (0 : EReal) (max 0 (dz : EReal)) = 0 := min_eq_left (le_max_left _ _)
    rw [h0, sub_zero, ← EReal.coe_zero, straight_through, EReal.coe_zero, sub_zero]
  · -- the quotient is the product with the reciprocal
    have hdiv : (w : EReal) * Ideal.div ((1 : ℝ) : EReal) (c : EReal) = Ideal.div (w : EReal) (c : EReal) := by
      rw [Ideal.div_coe hc, Ideal.div_coe hc, ← EReal.coe_mul, ← EReal.coe_mul, ← EReal.coe_mul]
      exact congrArg _ (by ring)
    rw [hdiv, Ideal.div_coe hc, ← EReal.coe_mul, ← EReal.coe_add, Ideal.liftRound_coe, straight_through]
    have hq : min ((15 : ℝ) : EReal) (max ((0 : ℝ) : EReal) (((Ideal.roundHalfEven (w * (1 / c) + z) : ℤ) : ℝ) : EReal))
        = ((min 15 (max 0 ((Ideal.roundHalfEven (w * (1 / c) + z) : ℤ) : ℝ)) : ℝ) : EReal) := by
      rw [coe_min, coe_max]
    have hd : min (c : EReal) (max (-(c : EReal)) (dz : EReal)) = ((min c (max (-c) dz) : ℝ) : EReal) := by
      rw [coe_min, coe_max, EReal.coe_neg]
    rw [← EReal.coe_sub ((0 : ℝ)) c, zero_sub, EReal.coe_neg, hq, straight_through, hd, straight_through]

end Cert.Quant

end
-- ==== Proof.Block.lean ====
/-
  One group of the kernel's scratch buffer.  The kernel body handles the 32 groups of 128 columns one
  after the other; for group `g` it loads the weight block `W` (768 rows, columns `128 g … 128 g + 127`)
  and column `g` of each of the five parameter arrays (768 x 1 vectors `S`, `Z`, `DZ`, `LO`, `HI`),
  and stores into the scratch buffer, at the weight block's place, the block

      dqBlock W S Z DZ LO HI (r, l) = kernelDq (W (r, l)) (S (r, 0)) (Z (r, 0)) (DZ (r, 0)) (LO (r, 0)) (HI (r, 0)).

  The 32 stored values are 32 different-looking terms (the same arithmetic, cut into named pieces at
  different places); each is this one function of its six loads, entry by entry: every operation
  in them is entrywise except the casts of a shape to itself (the identity) and the spreading of a
  768 x 1 column over 128 lanes (entry `(r, l)` is the column's entry `(r, 0)`).
-/
import proofs.«136200_j53850299957966_2_alg».proof.Proof.Gen.KernelIdeal.Skeleton
import proofs.«136200_j53850299957966_2_alg».proof.Proof.Dequant
import Idealize.ShloMosaic.Lib.Pipeline.Value
import Idealize.ShloMosaic.Lib.ValueIdx

noncomputable section

namespace Cert.Quant

open Cert.KernelIdeal Cert.KernelIdeal.Gen Idealize.ShloMosaic Idealize.ShloMosaic.ValueIdx

/-- The row's entry of a 768 x 1 column that an entry of a 768 x 128 block uses. -/
abbrev col (y : S768x128.Idx) : S768x1.Idx := ix2 (y 0) (0 : Fin 1)

/-- One group's block of the dequantised weight, from the group's six loads. -/
def dqBlock (W : Vec Ideal S768x128 .f32) (S Z DZ LO HI : Vec Ideal S768x1 .f32) : Vec Ideal S768x128 .f32 :=
  fun y => kernelDq (W y) (S (col y)) (Z (col y)) (DZ (col y)) (LO (col y)) (HI (col y))

/-- A 768 x 1 column spread over 128 lanes, read at an entry. -/
theorem spread_apply {α : Type} (v : S768x1.Idx → α) (h : S768x1.Broadcasts S768x128) (y : S768x128.Idx) :
    broadcastTo S768x128 v h y = v (col y) := by
  refine broadcastTo_apply v h y (col y) (fun a => ?_)
  match a with
  | ⟨0, _⟩ => show (y 0).val = if (768 : Nat) = 1 then 0 else (y 0).val; rw [if_neg (by decide)]
  | ⟨1, _⟩ => show 0 = if (1 : Nat) = 1 then 0 else (y 1).val; rw [if_pos rfl]

/-- Rounding to the nearest even integer, entrywise. -/
theorem roundeven_apply {s : Shape} {φ : FTy} (a : FVec Ideal s φ) (i : s.Idx) :
    roundeven a i = Ideal.liftRound Ideal.roundHalfEven (a i) := rfl

end Cert.Quant

end
-- ==== Proof.Groups.lean ====
/-
  The 32 stored blocks of the kernel body, one per group of 128 columns, each as the one function
  `dqBlock` of the group's six loads.  The terms on the left are the body's own stored values: the
  same arithmetic every time, named in pieces cut at different places; the proof is the same for all
  of them (unfold the names, drop the casts of a shape to itself, read every entrywise operation and
  every spread column at the entry).
-/
import proofs.«136200_j53850299957966_2_alg».proof.Proof.Block

noncomputable section

namespace Cert.Quant

open Cert.KernelIdeal Cert.KernelIdeal.Gen Idealize.ShloMosaic Idealize.ShloMosaic.ValueIdx

theorem group0_eq (W : Vec Ideal S768x128 .f32) (S Z DZ LO HI : Vec Ideal S768x1 .f32) :
    k0_pay2 W S Z DZ LO HI = dqBlock W S Z DZ LO HI := by
  funext y
  simp only [k0_pay2, shapeCast_self]
  simp only [mulf_apply, addf_apply, subf_apply, divf_apply, maximumf_apply, minimumf_apply, broadcast_apply,
    roundeven_apply, spread_apply]
  rfl

theorem group1_eq (W : Vec Ideal S768x128 .f32) (S Z DZ LO HI : Vec Ideal S768x1 .f32) :
    k0_pay3 W S Z DZ LO HI = dqBlock W S Z DZ LO HI := by
  funext y
  simp only [k0_pay3, shapeCast_self]
  simp only [mulf_apply, addf_apply, subf_apply, divf_apply, maximumf_apply, minimumf_apply, broadcast_apply,
    roundeven_apply, spread_apply]
  rfl

theorem group2_eq (W : Vec Ideal S768x128 .f32) (S Z DZ LO HI : Vec Ideal S768x1 .f32) :
    k0_pay5 W (k0_pay4 S) Z DZ LO HI = dqBlock W S Z DZ LO HI := by
  funext y
  simp only [k0_pay4, k0_pay5, shapeCast_self]
  simp only [mulf_apply, addf_apply, subf_apply, divf_apply, maximumf_apply, minimumf_apply, broadcast_apply,
    roundeven_apply, spread_apply]
  rfl

theorem group3_eq (W : Vec Ideal S768x128 .f32) (S Z DZ LO HI : Vec Ideal S768x1 .f32) :
    k0_pay8 W (k0_pay6 S) (k0_pay7 Z) DZ LO HI = dqBlock W S Z DZ LO HI := by
  funext y
  simp only [k0_pay7, k0_pay6, k0_pay8, shapeCast_self]
  simp only [mulf_apply, addf_apply, subf_apply, divf_apply, maximumf_apply, minimumf_apply, broadcast_apply,
    roundeven_apply, spread_apply]
  rfl

theorem group4_eq (W : Vec Ideal S768x128 .f32) (S Z DZ LO HI : Vec Ideal S768x1 .f32) :
    k0_pay12 W (k0_pay9 S) (k0_pay10 Z) (k0_pay11 DZ) LO HI = dqBlock W S Z DZ LO HI := by
  funext y
  simp only [k0_pay11, k0_pay10, k0_pay9, k0_pay12, shapeCast_self]
  simp only [mulf_apply, addf_apply, subf_apply, divf_apply, maximumf_apply, minimumf_apply, broadcast_apply,
    roundeven_apply, spread_apply]
  rfl

theorem group5_eq (W : Vec Ideal S768x128 .f32) (S Z DZ LO HI : Vec Ideal S768x1 .f32) :
    k0_pay17 W (k0_pay13 S) (k0_pay14 Z) (k0_pay15 DZ) (k0_pay16 LO) HI = dqBlock W S Z DZ LO HI := by
  funext y
  simp only [k0_pay16, k0_pay15, k0_pay14, k0_pay13, k0_pay17, shapeCast_self]
  simp only [mulf_apply, addf_apply, subf_apply, divf_apply, maximumf_apply, minimumf_apply, broadcast_apply,
    roundeven_apply, spread_apply]
  rfl

theorem group6_eq (W : Vec Ideal S768x128 .f32) (S Z DZ LO HI : Vec Ideal S768x1 .f32) :
    k0_pay23 W (k0_pay18 S) (k0_pay19 Z) (k0_pay20 DZ) (k0_pay21 LO) (k0_pay22 HI) = dqBlock W S Z DZ LO HI := by
  funext y
  simp only [k0_pay22, k0_pay21, k0_pay20, k0_pay19, k0_pay18, k0_pay23, shapeCast_self]
  simp only [mulf_apply, addf_apply, subf_apply, divf_apply, maximumf_apply, minimumf_apply, broadcast_apply,
    roundeven_apply, spread_apply]
  rfl

theorem group7_eq (W : Vec Ideal S768x128 .f32) (S Z DZ LO HI : Vec Ideal S768x1 .f32) :
    k0_pay28 W (k0_pay24 Z) (k0_pay25 DZ) (k0_pay26 S LO HI) k0_pay27 = dqBlock W S Z DZ LO HI := by
  funext y
  simp only [k0_pay27, k0_pay26, k0_pay25, k0_pay24, k0_pay28, shapeCast_self]
  simp only [mulf_apply, addf_apply, subf_apply, divf_apply, maximumf_apply, minimumf_apply, broadcast_apply,
    roundeven_apply, spread_apply]
  rfl

theorem group8_eq (W : Vec Ideal S768x128 .f32) (S Z DZ LO HI : Vec Ideal S768x1 .f32) :
    k0_pay34 (k0_pay29 Z) (k0_pay30 DZ) (k0_pay31 S LO HI) (k0_pay32 W S LO HI) (k0_pay33 Z) = dqBlock W S Z DZ LO HI := by
  funext y
  simp only [k0_pay33, k0_pay29, k0_pay32, k0_pay31, k0_pay30, k0_pay34, shapeCast_self]
  simp only [mulf_apply, addf_apply, subf_apply, divf_apply, maximumf_apply, minimumf_apply, broadcast_apply,
    roundeven_apply, spread_apply]
  rfl

theorem group9_eq (W : Vec Ideal S768x128 .f32) (S Z DZ LO HI : Vec Ideal S768x1 .f32) :
    k0_pay39 (k0_pay35 Z) (k0_pay36 DZ) (k0_pay37 S LO HI) (k0_pay38 W S Z LO HI) (FloatOps.ofBits (F := Ideal) FTy.f32 0#32) (FloatOps.ofBits (F := Ideal) FTy.f32 1097859072#32) = dqBlock W S Z DZ LO HI := by
  funext y
  simp only [k0_pay38, k0_pay35, k0_pay37, k0_pay36, k0_pay39, shapeCast_self]
  simp only [mulf_apply, addf_apply, subf_apply, divf_apply, maximumf_apply, minimumf_apply, broadcast_apply,
    roundeven_apply, spread_apply]
  rfl

theorem group10_eq (W : Vec Ideal S768x128 .f32) (S Z DZ LO HI : Vec Ideal S768x1 .f32) :
    k0_pay44 (k0_pay40 Z) (k0_pay41 DZ) (k0_pay42 S LO HI) (k0_pay43 W S Z LO HI) = dqBlock W S Z DZ LO HI := by
  funext y
  simp only [k0_pay43, k0_pay40, k0_pay42, k0_pay41, k0_pay44, shapeCast_self]
  simp only [mulf_apply, addf_apply, subf_apply, divf_apply, maximumf_apply, minimumf_apply, broadcast_apply,
    roundeven_apply, spread_apply]
  rfl

theorem group11_eq (W : Vec Ideal S768x128 .f32) (S Z DZ LO HI : Vec Ideal S768x1 .f32) :
    k0_pay49 (k0_pay45 Z) (k0_pay46 S LO HI) (k0_pay47 W S Z LO HI) (k0_pay48 S DZ LO HI) = dqBlock W S Z DZ LO HI := by
  funext y
  simp only [k0_pay48, k0_pay46, k0_pay47, k0_pay45, k0_pay49, shapeCast_self]
  simp only [mulf_apply, addf_apply, subf_apply, divf_apply, maximumf_apply, minimumf_apply, broadcast_apply,
    roundeven_apply, spread_apply]
  rfl

theorem group12_eq (W : Vec Ideal S768x128 .f32) (S Z DZ LO HI : Vec Ideal S768x1 .f32) :
    k0_pay54 (k0_pay51 S DZ LO HI) (k0_pay52 W S Z LO HI) (k0_pay53 S LO HI) = dqBlock W S Z DZ LO HI := by
  funext y
  simp only [k0_pay53, k0_pay50, k0_pay52, k0_pay51, k0_pay54, shapeCast_self]
  simp only [mulf_apply, addf_apply, subf_apply, divf_apply, maximumf_apply, minimumf_apply, broadcast_apply,
    roundeven_apply, spread_apply]
  rfl

theorem group13_eq (W : Vec Ideal S768x128 .f32) (S Z DZ LO HI : Vec Ideal S768x1 .f32) :
    k0_pay56 (k0_pay55 W S Z DZ LO HI) = dqBlock W S Z DZ LO HI := by
  funext y
  simp only [k0_pay55, k0_pay56, shapeCast_self]
  simp only [mulf_apply, addf_apply, subf_apply, divf_apply, maximumf_apply, minimumf_apply, broadcast_apply,
    roundeven_apply, spread_apply]
  rfl

theorem group14_eq (W : Vec Ideal S768x128 .f32) (S Z DZ LO HI : Vec Ideal S768x1 .f32) :
    k0_pay57 W S Z DZ LO HI = dqBlock W S Z DZ LO HI := by
  funext y
  simp only [k0_pay57, shapeCast_self]
  simp only [mulf_apply, addf_apply, subf_apply, divf_apply, maximumf_apply, minimumf_apply, broadcast_apply,
    roundeven_apply, spread_apply]
  rfl

theorem group15_eq (W : Vec Ideal S768x128 .f32) (S Z DZ LO HI : Vec Ideal S768x1 .f32) :
    k0_pay58 W S Z DZ LO HI = dqBlock W S Z DZ LO HI := by
  funext y
  simp only [k0_pay58, shapeCast_self]
  simp only [mulf_apply, addf_apply, subf_apply, divf_apply, maximumf_apply, minimumf_apply, broadcast_apply,
    roundeven_apply, spread_apply]
  rfl

theorem group16_eq (W : Vec Ideal S768x128 .f32) (S Z DZ LO HI : Vec Ideal S768x1 .f32) :
    k0_pay59 W S Z DZ LO HI = dqBlock W S Z DZ LO HI := by
  funext y
  simp only [k0_pay59, shapeCast_self]
  simp only [mulf_apply, addf_apply, subf_apply, divf_apply, maximumf_apply, minimumf_apply, broadcast_apply,
    roundeven_apply, spread_apply]
  rfl

theorem group17_eq (W : Vec Ideal S768x128 .f32) (S Z DZ LO HI : Vec Ideal S768x1 .f32) :
    k0_pay61 W (k0_pay60 S) Z DZ LO HI = dqBlock W S Z DZ LO HI := by
  funext y
  simp only [k0_pay60, k0_pay61, shapeCast_self]
  simp only [mulf_apply, addf_apply, subf_apply, divf_apply, maximumf_apply, minimumf_apply, broadcast_apply,
    roundeven_apply, spread_apply]
  rfl

theorem group18_eq (W : Vec Ideal S768x128 .f32) (S Z DZ LO HI : Vec Ideal S768x1 .f32) :
    k0_pay64 W (k0_pay62 S) (k0_pay63 Z) DZ LO HI = dqBlock W S Z DZ LO HI := by
  funext y
  simp only [k0_pay63, k0_pay62, k0_pay64, shapeCast_self]
  simp only [mulf_apply, addf_apply, subf_apply, divf_apply, maximumf_apply, minimumf_apply, broadcast_apply,
    roundeven_apply, spread_apply]
  rfl

theorem group19_eq (W : Vec Ideal S768x128 .f32) (S Z DZ LO HI : Vec Ideal S768x1 .f32) :
    k0_pay68 W (k0_pay65 S) (k0_pay66 Z) (k0_pay67 DZ) LO HI = dqBlock W S Z DZ LO HI := by
  funext y
  simp only [k0_pay67, k0_pay66, k0_pay65, k0_pay68, shapeCast_self]
  simp only [mulf_apply, addf_apply, subf_apply, divf_apply, maximumf_apply, minimumf_apply, broadcast_apply,
    roundeven_apply, spread_apply]
  rfl

theorem group20_eq (W : Vec Ideal S768x128 .f32) (S Z DZ LO HI : Vec Ideal S768x1 .f32) :
    k0_pay73 W (k0_pay69 S) (k0_pay70 Z) (k0_pay71 DZ) (k0_pay72 LO) HI = dqBlock W S Z DZ LO HI := by
  funext y
  simp only [k0_pay72, k0_pay71, k0_pay70, k0_pay69, k0_pay73, shapeCast_self]
  simp only [mulf_apply, addf_apply, subf_apply, divf_apply, maximumf_apply, minimumf_apply, broadcast_apply,
    roundeven_apply, spread_apply]
  rfl

theorem group21_eq (W : Vec Ideal S768x128 .f32) (S Z DZ LO HI : Vec Ideal S768x1 .f32) :
    k0_pay79 W (k0_pay74 S) (k0_pay75 Z) (k0_pay76 DZ) (k0_pay77 LO) (k0_pay78 HI) = dqBlock W S Z DZ LO HI := by
  funext y
  simp only [k0_pay78, k0_pay77, k0_pay76, k0_pay75, k0_pay74, k0_pay79, shapeCast_self]
  simp only [mulf_apply, addf_apply, subf_apply, divf_apply, maximumf_apply, minimumf_apply, broadcast_apply,
    roundeven_apply, spread_apply]
  rfl

theorem group22_eq (W : Vec Ideal S768x128 .f32) (S Z DZ LO HI : Vec Ideal S768x1 .f32) :
    k0_pay84 W (k0_pay80 Z) (k0_pay81 DZ) (k0_pay82 S LO HI) k0_pay83 = dqBlock W S Z DZ LO HI := by
  funext y
  simp only [k0_pay83, k0_pay82, k0_pay81, k0_pay80, k0_pay84, shapeCast_self]
  simp only [mulf_apply, addf_apply, subf_apply, divf_apply, maximumf_apply, minimumf_apply, broadcast_apply,
    roundeven_apply, spread_apply]
  rfl

theorem group23_eq (W : Vec Ideal S768x128 .f32) (S Z DZ LO HI : Vec Ideal S768x1 .f32) :
    k0_pay90 (k0_pay85 Z) (k0_pay86 DZ) (k0_pay87 S LO HI) (k0_pay88 W S LO HI) (k0_pay89 Z) = dqBlock W S Z DZ LO HI := by
  funext y
  simp only [k0_pay89, k0_pay85, k0_pay88, k0_pay87, k0_pay86, k0_pay90, shapeCast_self]
  simp only [mulf_apply, addf_apply, subf_apply, divf_apply, maximumf_apply, minimumf_apply, broadcast_apply,
    roundeven_apply, spread_apply]
  rfl

theorem group24_eq (W : Vec Ideal S768x128 .f32) (S Z DZ LO HI : Vec Ideal S768x1 .f32) :
    k0_pay95 (k0_pay91 Z) (k0_pay92 DZ) (k0_pay93 S LO HI) (k0_pay94 W S Z LO HI) (FloatOps.ofBits (F := Ideal) FTy.f32 0#32) (FloatOps.ofBits (F := Ideal) FTy.f32 1097859072#32) = dqBlock W S Z DZ LO HI := by
  funext y
  simp only [k0_pay94, k0_pay91, k0_pay93, k0_pay92, k0_pay95, shapeCast_self]
  simp only [mulf_apply, addf_apply, subf_apply, divf_apply, maximumf_apply, minimumf_apply, broadcast_apply,
    roundeven_apply, spread_apply]
  rfl

theorem group25_eq (W : Vec Ideal S768x128 .f32) (S Z DZ LO HI : Vec Ideal S768x1 .f32) :
    k0_pay100 (k0_pay96 Z) (k0_pay97 DZ) (k0_pay98 S LO HI) (k0_pay99 W S Z LO HI) = dqBlock W S Z DZ LO HI := by
  funext y
  simp only [k0_pay99, k0_pay96, k0_pay98, k0_pay97, k0_pay100, shapeCast_self]
  simp only [mulf_apply, addf_apply, subf_apply, divf_apply, maximumf_apply, minimumf_apply, broadcast_apply,
    roundeven_apply, spread_apply]
  rfl

theorem group26_eq (W : Vec Ideal S768x128 .f32) (S Z DZ LO HI : Vec Ideal S768x1 .f32) :
    k0_pay105 (k0_pay101 Z) (k0_pay102 S LO HI) (k0_pay103 W S Z LO HI) (k0_pay104 S DZ LO HI) = dqBlock W S Z DZ LO HI := by
  funext y
  simp only [k0_pay104, k0_pay102, k0_pay103, k0_pay101, k0_pay105, shapeCast_self]
  simp only [mulf_apply, addf_apply, subf_apply, divf_apply, maximumf_apply, minimumf_apply, broadcast_apply,
    roundeven_apply, spread_apply]
  rfl

theorem group27_eq (W : Vec Ideal S768x128 .f32) (S Z DZ LO HI : Vec Ideal S768x1 .f32) :
    k0_pay110 (k0_pay107 S DZ LO HI) (k0_pay108 W S Z LO HI) (k0_pay109 S LO HI) = dqBlock W S Z DZ LO HI := by
  funext y
  simp only [k0_pay109, k0_pay106, k0_pay108, k0_pay107, k0_pay110, shapeCast_self]
  simp only [mulf_apply, addf_apply, subf_apply, divf_apply, maximumf_apply, minimumf_apply, broadcast_apply,
    roundeven_apply, spread_apply]
  rfl

theorem group28_eq (W : Vec Ideal S768x128 .f32) (S Z DZ LO HI : Vec Ideal S768x1 .f32) :
    k0_pay112 (k0_pay111 W S Z DZ LO HI) = dqBlock W S Z DZ LO HI := by
  funext y
  simp only [k0_pay111, k0_pay112, shapeCast_self]
  simp only [mulf_apply, addf_apply, subf_apply, divf_apply, maximumf_apply, minimumf_apply, broadcast_apply,
    roundeven_apply, spread_apply]
  rfl

theorem group29_eq (W : Vec Ideal S768x128 .f32) (S Z DZ LO HI : Vec Ideal S768x1 .f32) :
    k0_pay113 W S Z DZ LO HI = dqBlock W S Z DZ LO HI := by
  funext y
  simp only [k0_pay113, shapeCast_self]
  simp only [mulf_apply, addf_apply, subf_apply, divf_apply, maximumf_apply, minimumf_apply, broadcast_apply,
    roundeven_apply, spread_apply]
  rfl

theorem group30_eq (W : Vec Ideal S768x128 .f32) (S Z DZ LO HI : Vec Ideal S768x1 .f32) :
    k0_pay114 W S Z DZ LO HI = dqBlock W S Z DZ LO HI := by
  funext y
  simp only [k0_pay114, shapeCast_self]
  simp only [mulf_apply, addf_apply, subf_apply, divf_apply, maximumf_apply, minimumf_apply, broadcast_apply,
    roundeven_apply, spread_apply]
  rfl

theorem group31_eq (W : Vec Ideal S768x128 .f32) (S Z DZ LO HI : Vec Ideal S768x1 .f32) :
    k0_pay115 W S Z DZ LO HI = dqBlock W S Z DZ LO HI := by
  funext y
  simp only [k0_pay115, shapeCast_self]
  simp only [mulf_apply, addf_apply, subf_apply, divf_apply, maximumf_apply, minimumf_apply, broadcast_apply,
    roundeven_apply, spread_apply]
  rfl

end Cert.Quant

end
-- ==== Proof.KernelBody.lean ====
/-
  What one grid step of the kernel leaves in its output block.  The body fills its scratch buffer
  (768 x 4096) group by group with the dequantised weight block, then multiplies the resident
  activations `x0` (16 x 4096) by the scratch buffer, contracting the last axis of both, and adds the
  bias row `x7` (1 x 768) to every row.  So entry `(p, q)` of the block is

      sum over k < 4096 of x0 (p, k) * wdqBlk (q, k)   +   x7 (0, q)

  where `wdqBlk (q, k)` is the per-element law `kernelDq` of the weight entry `(q, k)` and of the
  parameters' entries `(q, k / 128)`: column `k` lies in group `k / 128`, whose store is the one that
  covers it, and the 32 stores tile the scratch buffer.
-/
import proofs.«136200_j53850299957966_2_alg».proof.Proof.Gen.KernelIdeal.Frame
import proofs.«136200_j53850299957966_2_alg».proof.Proof.Groups
import Idealize.ShloMosaic.Lib.ValueLayout
import Idealize.ShloMosaic.PureOps.Ideal.Laws

set_option maxRecDepth 16384

noncomputable section

namespace Cert.Quant

open Cert.KernelIdeal Cert.KernelIdeal.Gen Idealize.ShloMosaic Idealize.ShloMosaic.TcCoe Idealize.ShloMosaic.ValueIdx
open Idealize.ShloMosaic.Tactic Idealize.SL.Sem

theorem zero_offsets : (![0, 0] : Fin 2 → Nat) = fun _ => 0 := funext fun a => by fin_cases a <;> rfl

/-- The parameters' entry that the weight entry `y` of a 768 x 4096 block uses: its row, its group. -/
abbrev grp (y : S768x4096.Idx) : S768x32.Idx :=
  ix2 (y 0) (⟨(y 1).val / 128, by have h : (y 1).val < 4096 := (y 1).isLt; omega⟩ : Fin 32)

/-- The dequantised weight block, entry by entry. -/
def wdqBlk (x1 : Vec Ideal S768x4096 .f32) (x2 x3 x4 x5 x6 : Vec Ideal S768x32 .f32) : Vec Ideal S768x4096 .f32 :=
  fun y => kernelDq (x1 y) (x2 (grp y)) (x3 (grp y)) (x4 (grp y)) (x5 (grp y)) (x6 (grp y))

/-- One grid step's output block. -/
def bodyVal (x0 : Vec Ideal S16x4096 .f32) (x1 : Vec Ideal S768x4096 .f32) (x2 x3 x4 x5 x6 : Vec Ideal S768x32 .f32)
    (x7 : Vec Ideal S1x768 .f32) : Vec Ideal S16x768 .f32 :=
  fun j => (∑ k : Fin 4096, x0 (ix2 (j 0) k) * wdqBlk x1 x2 x3 x4 x5 x6 (ix2 (j 1) k)) + x7 (ix2 (0 : Fin 1) (j 1))

/-- Group `g`'s block, computed from the group's loads (columns `o = 128 g` on of the weight block, column `g` of
    each parameter block), is the dequantised weight block at the indices its store writes. -/
theorem dqBlock_emb (o g : Nat) (ho : o = 128 * g)
    (inbW : ∀ a, (![0, o] : Fin 2 → Nat) a + S768x128.size a ≤ S768x4096.size a)
    (inbP : ∀ a, (![0, g] : Fin 2 → Nat) a + S768x1.size a ≤ S768x32.size a)
    (x1 : Vec Ideal S768x4096 .f32) (x2 x3 x4 x5 x6 : Vec Ideal S768x32 .f32) (x : S768x128.Idx) :
    dqBlock (View.ld x1 (Rect.unit (s := S768x4096) ![0, o] S768x128.size inbW)) (View.ld x2 (Rect.unit (s := S768x32) ![0, g] S768x1.size inbP))
        (View.ld x3 (Rect.unit (s := S768x32) ![0, g] S768x1.size inbP)) (View.ld x4 (Rect.unit (s := S768x32) ![0, g] S768x1.size inbP))
        (View.ld x5 (Rect.unit (s := S768x32) ![0, g] S768x1.size inbP)) (View.ld x6 (Rect.unit (s := S768x32) ![0, g] S768x1.size inbP)) x
      = wdqBlk x1 x2 x3 x4 x5 x6 ((Rect.unit (s := S768x4096) ![0, o] S768x128.size inbW).emb x) := by
  have hidx : (Rect.unit (s := S768x32) ![0, g] S768x1.size inbP).idx (col x) = grp ((Rect.unit (s := S768x4096) ![0, o] S768x128.size inbW).emb x) := by
    funext a; apply Fin.ext
    match a with
    | ⟨0, _⟩ => rfl
    | ⟨1, _⟩ =>
      show g + 1 * 0 = (o + 1 * (x 1).val) / 128
      have hx : (x 1).val < 128 := (x 1).isLt
      omega
  unfold dqBlock wdqBlk
  show kernelDq (x1 _) (x2 ((Rect.unit (s := S768x32) ![0, g] S768x1.size inbP).idx (col x))) (x3 ((Rect.unit (s := S768x32) ![0, g] S768x1.size inbP).idx (col x)))
      (x4 ((Rect.unit (s := S768x32) ![0, g] S768x1.size inbP).idx (col x))) (x5 ((Rect.unit (s := S768x32) ![0, g] S768x1.size inbP).idx (col x)))
      (x6 ((Rect.unit (s := S768x32) ![0, g] S768x1.size inbP).idx (col x))) = _
  rw [hidx]
  rfl

/-! ## The matrix product and the bias -/

theorem lhs_row (j : S16x768.Idx) (q : dot_S16x4096_S768x4096_S16x768_1_1_0_0_n_n.contr.Idx) : (dot_S16x4096_S768x4096_S16x768_1_1_0_0_n_n.lhsIdx j q 0).val = (j 0).val := by
  unfold DotDims.lhsIdx
  rw [dif_neg (show ¬(0 : Fin S16x4096.rank) ∈ dot_S16x4096_S768x4096_S16x768_1_1_0_0_n_n.lhsBatch by decide), dif_pos (show (0 : Fin S16x4096.rank) ∈ dot_S16x4096_S768x4096_S16x768_1_1_0_0_n_n.lhsNonContracting by decide)]
  rfl
theorem lhs_contr (j : S16x768.Idx) (q : dot_S16x4096_S768x4096_S16x768_1_1_0_0_n_n.contr.Idx) : (dot_S16x4096_S768x4096_S16x768_1_1_0_0_n_n.lhsIdx j q 1).val = (q ⟨0, by decide⟩).val :=
  dot_S16x4096_S768x4096_S16x768_1_1_0_0_n_n.lhsIdx_val_of_single rfl j q
theorem rhs_row (j : S16x768.Idx) (q : dot_S16x4096_S768x4096_S16x768_1_1_0_0_n_n.contr.Idx) : (dot_S16x4096_S768x4096_S16x768_1_1_0_0_n_n.rhsIdx j q 0).val = (j 1).val := by
  unfold DotDims.rhsIdx
  rw [dif_neg (show ¬(0 : Fin S768x4096.rank) ∈ dot_S16x4096_S768x4096_S16x768_1_1_0_0_n_n.rhsBatch by decide), dif_pos (show (0 : Fin S768x4096.rank) ∈ dot_S16x4096_S768x4096_S16x768_1_1_0_0_n_n.rhsNonContracting by decide)]
  rfl
theorem rhs_contr (j : S16x768.Idx) (q : dot_S16x4096_S768x4096_S16x768_1_1_0_0_n_n.contr.Idx) : (dot_S16x4096_S768x4096_S16x768_1_1_0_0_n_n.rhsIdx j q 1).val = (q ⟨0, by decide⟩).val :=
  dot_S16x4096_S768x4096_S16x768_1_1_0_0_n_n.rhsIdx_val_of_single rfl j q

/-- The body's last stored value, read at an entry: the product of the activations with the scratch contents `G`,
    both contracted on their last axis, plus the bias row. -/
theorem product_apply (x0 : Vec Ideal S16x4096 .f32) (G : Vec Ideal S768x4096 .f32) (x7 : Vec Ideal S1x768 .f32) (j : S16x768.Idx) :
    k0_pay1 x0 G (constant (F := Ideal) S16x768 .f32 0x00000000#32) x7 j
      = (∑ k : Fin 4096, x0 (ix2 (j 0) k) * G (ix2 (j 1) k)) + x7 (ix2 (0 : Fin 1) (j 1)) := by
  obtain ⟨p, q, rfl⟩ : ∃ (p : Fin 16) (q : Fin 768), j = ix2 p q := ⟨j 0, j 1, eq_ix2 j⟩
  unfold k0_pay1
  simp only [shapeCast_self]
  show FloatOps.matmul dot_S16x4096_S768x4096_S16x768_1_1_0_0_n_n (some .fp32) x0 G (constant (F := Ideal) S16x768 .f32 0x00000000#32) (ix2 p q)
      + broadcastTo S16x768 x7 broadcasts_S1x768_S16x768 (ix2 p q) = _
  rw [broadcastTo_1b_ab_apply, Ideal.matmul_constant_zero_apply,
    ← Equiv.sum_comp (contrEquiv1 dot_S16x4096_S768x4096_S16x768_1_1_0_0_n_n 4096 rfl rfl).symm]
  refine congrArg (· + _) (Finset.sum_congr rfl fun k _ => ?_)
  have hk := contrEquiv1_symm_val dot_S16x4096_S768x4096_S16x768_1_1_0_0_n_n 4096 rfl rfl k
  have el : dot_S16x4096_S768x4096_S16x768_1_1_0_0_n_n.lhsIdx (ix2 p q) ((contrEquiv1 dot_S16x4096_S768x4096_S16x768_1_1_0_0_n_n 4096 rfl rfl).symm k) = ix2 p k := funext fun a => Fin.ext (by
    match a with
    | ⟨0, _⟩ => exact lhs_row _ _
    | ⟨1, _⟩ => exact (lhs_contr _ _).trans hk)
  have er : dot_S16x4096_S768x4096_S16x768_1_1_0_0_n_n.rhsIdx (ix2 p q) ((contrEquiv1 dot_S16x4096_S768x4096_S16x768_1_1_0_0_n_n 4096 rfl rfl).symm k) = ix2 q k := funext fun a => Fin.ext (by
    match a with
    | ⟨0, _⟩ => exact rhs_row _ _
    | ⟨1, _⟩ => exact (rhs_contr _ _).trans hk)
  rw [el, er]

/-- The product read off a scratch buffer filled by a covering list of stores each of which agrees with ONE function
    `G` of the buffer's index. -/
theorem product_of_pieces (v : View sig .tc .vmem S768x4096 .f32) (L : List (View.Piece (Elt Ideal) S768x4096 .f32))
    (inb : ∀ a, (![0, 0] : Fin 2 → Nat) a + S768x4096.size a ≤ S768x4096.size a)
    (x0 : Vec Ideal S16x4096 .f32) (x7 : Vec Ideal S1x768 .f32) (G : Vec Ideal S768x4096 .f32)
    (hG : ∀ p ∈ L, ∀ x : p.1.shape.Idx, p.2 x = G (p.1.emb x))
    (hcov : ∀ y : S768x4096.Idx, ∃ p ∈ L, y ∈ p.1.set) :
    k0_pay1 x0 (v.readCov L (Rect.unit ![0, 0] S768x4096.size inb).toLoadRect) (constant (F := Ideal) S16x768 .f32 0x00000000#32) x7
      = fun j => (∑ k : Fin 4096, x0 (ix2 (j 0) k) * G (ix2 (j 1) k)) + x7 (ix2 (0 : Fin 1) (j 1)) := by
  have hcanon : View.canon L = G := funext fun y => View.canon_apply_of_pieces G L hG y (hcov y)
  rw [View.readCov_eq_canon_ld _ _ _ hcov, View.ld_unit_zero zero_offsets, hcanon]
  exact funext fun j => product_apply x0 G x7 j

/-! ## The body's output block -/

set_option maxHeartbeats 1600000 in
/-- What the body's run leaves in the output's staging buffer is `bodyVal` of the eight input blocks. -/
theorem out_eq (c : Dev nD) (i : grid0.Coords) (arg1 : Memref sig .tc .vmem S16x4096 .f32) (harg1 : arg1.IsWhole) (arg2 : Memref sig .tc .vmem S768x4096 .f32) (harg2 : arg2.IsWhole) (arg3 : Memref sig .tc .vmem S768x32 .f32) (harg3 : arg3.IsWhole) (arg4 : Memref sig .tc .vmem S768x32 .f32) (harg4 : arg4.IsWhole) (arg5 : Memref sig .tc .vmem S768x32 .f32) (harg5 : arg5.IsWhole) (arg6 : Memref sig .tc .vmem S768x32 .f32) (harg6 : arg6.IsWhole) (arg7 : Memref sig .tc .vmem S768x32 .f32) (harg7 : arg7.IsWhole) (arg8 : Memref sig .tc .vmem S1x768 .f32) (harg8 : arg8.IsWhole) (arg9 : Memref sig .tc .vmem S16x768 .f32) (harg9 : arg9.IsWhole) (arg10 : Memref sig .tc .vmem S768x4096 .f32) (harg10 : arg10.IsWhole)
    (x0 : Vec Ideal S16x4096 .f32) (x1 : Vec Ideal S768x4096 .f32) (x2 : Vec Ideal S768x32 .f32) (x3 : Vec Ideal S768x32 .f32) (x4 : Vec Ideal S768x32 .f32) (x5 : Vec Ideal S768x32 .f32) (x6 : Vec Ideal S768x32 .f32) (x7 : Vec Ideal S1x768 .f32) :
    out0_A_8 (F := Ideal) c i arg1 harg1 arg2 harg2 arg3 harg3 arg4 harg4 arg5 harg5 arg6 harg6 arg7 harg7 arg8 harg8 arg9 harg9 arg10 harg10 x0 x1 x2 x3 x4 x5 x6 x7 = bodyVal x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero zero_offsets]
  simp only [View.readAt_eq_ld, harg1.read_unread, harg2.read_unread, harg3.read_unread, harg4.read_unread, harg5.read_unread,
    harg6.read_unread, harg7.read_unread, harg8.read_unread, View.ld_unit_zero (S := S16x4096) zero_offsets,
    View.ld_unit_zero (S := S1x768) zero_offsets]
  refine product_of_pieces _ _ _ x0 x7 (wdqBlk x1 x2 x3 x4 x5 x6) ?_ (View.cover_of_tiledL _ S768x128.size (by sl_kernel_rfl))
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (congrFun (group31_eq _ _ _ _ _ _) x).trans (dqBlock_emb 3968 31 rfl _ _ x1 x2 x3 x4 x5 x6 x)
  · exact (congrFun (group30_eq _ _ _ _ _ _) x).trans (dqBlock_emb 3840 30 rfl _ _ x1 x2 x3 x4 x5 x6 x)
  · exact (congrFun (group29_eq _ _ _ _ _ _) x).trans (dqBlock_emb 3712 29 rfl _ _ x1 x2 x3 x4 x5 x6 x)
  · exact (congrFun (group28_eq _ _ _ _ _ _) x).trans (dqBlock_emb 3584 28 rfl _ _ x1 x2 x3 x4 x5 x6 x)
  · exact (congrFun (group27_eq _ _ _ _ _ _) x).trans (dqBlock_emb 3456 27 rfl _ _ x1 x2 x3 x4 x5 x6 x)
  · exact (congrFun (group26_eq _ _ _ _ _ _) x).trans (dqBlock_emb 3328 26 rfl _ _ x1 x2 x3 x4 x5 x6 x)
  · exact (congrFun (group25_eq _ _ _ _ _ _) x).trans (dqBlock_emb 3200 25 rfl _ _ x1 x2 x3 x4 x5 x6 x)
  · exact (congrFun (group24_eq _ _ _ _ _ _) x).trans (dqBlock_emb 3072 24 rfl _ _ x1 x2 x3 x4 x5 x6 x)
  · exact (congrFun (group23_eq _ _ _ _ _ _) x).trans (dqBlock_emb 2944 23 rfl _ _ x1 x2 x3 x4 x5 x6 x)
  · exact (congrFun (group22_eq _ _ _ _ _ _) x).trans (dqBlock_emb 2816 22 rfl _ _ x1 x2 x3 x4 x5 x6 x)
  · exact (congrFun (group21_eq _ _ _ _ _ _) x).trans (dqBlock_emb 2688 21 rfl _ _ x1 x2 x3 x4 x5 x6 x)
  · exact (congrFun (group20_eq _ _ _ _ _ _) x).trans (dqBlock_emb 2560 20 rfl _ _ x1 x2 x3 x4 x5 x6 x)
  · exact (congrFun (group19_eq _ _ _ _ _ _) x).trans (dqBlock_emb 2432 19 rfl _ _ x1 x2 x3 x4 x5 x6 x)
  · exact (congrFun (group18_eq _ _ _ _ _ _) x).trans (dqBlock_emb 2304 18 rfl _ _ x1 x2 x3 x4 x5 x6 x)
  · exact (congrFun (group17_eq _ _ _ _ _ _) x).trans (dqBlock_emb 2176 17 rfl _ _ x1 x2 x3 x4 x5 x6 x)
  · exact (congrFun (group16_eq _ _ _ _ _ _) x).trans (dqBlock_emb 2048 16 rfl _ _ x1 x2 x3 x4 x5 x6 x)
  · exact (congrFun (group15_eq _ _ _ _ _ _) x).trans (dqBlock_emb 1920 15 rfl _ _ x1 x2 x3 x4 x5 x6 x)
  · exact (congrFun (group14_eq _ _ _ _ _ _) x).trans (dqBlock_emb 1792 14 rfl _ _ x1 x2 x3 x4 x5 x6 x)
  · exact (congrFun (group13_eq _ _ _ _ _ _) x).trans (dqBlock_emb 1664 13 rfl _ _ x1 x2 x3 x4 x5 x6 x)
  · exact (congrFun (group12_eq _ _ _ _ _ _) x).trans (dqBlock_emb 1536 12 rfl _ _ x1 x2 x3 x4 x5 x6 x)
  · exact (congrFun (group11_eq _ _ _ _ _ _) x).trans (dqBlock_emb 1408 11 rfl _ _ x1 x2 x3 x4 x5 x6 x)
  · exact (congrFun (group10_eq _ _ _ _ _ _) x).trans (dqBlock_emb 1280 10 rfl _ _ x1 x2 x3 x4 x5 x6 x)
  · exact (congrFun (group9_eq _ _ _ _ _ _) x).trans (dqBlock_emb 1152 9 rfl _ _ x1 x2 x3 x4 x5 x6 x)
  · exact (congrFun (group8_eq _ _ _ _ _ _) x).trans (dqBlock_emb 1024 8 rfl _ _ x1 x2 x3 x4 x5 x6 x)
  · exact (congrFun (group7_eq _ _ _ _ _ _) x).trans (dqBlock_emb 896 7 rfl _ _ x1 x2 x3 x4 x5 x6 x)
  · exact (congrFun (group6_eq _ _ _ _ _ _) x).trans (dqBlock_emb 768 6 rfl _ _ x1 x2 x3 x4 x5 x6 x)
  · exact (congrFun (group5_eq _ _ _ _ _ _) x).trans (dqBlock_emb 640 5 rfl _ _ x1 x2 x3 x4 x5 x6 x)
  · exact (congrFun (group4_eq _ _ _ _ _ _) x).trans (dqBlock_emb 512 4 rfl _ _ x1 x2 x3 x4 x5 x6 x)
  · exact (congrFun (group3_eq _ _ _ _ _ _) x).trans (dqBlock_emb 384 3 rfl _ _ x1 x2 x3 x4 x5 x6 x)
  · exact (congrFun (group2_eq _ _ _ _ _ _) x).trans (dqBlock_emb 256 2 rfl _ _ x1 x2 x3 x4 x5 x6 x)
  · exact (congrFun (group1_eq _ _ _ _ _ _) x).trans (dqBlock_emb 128 1 rfl _ _ x1 x2 x3 x4 x5 x6 x)
  · exact (congrFun (group0_eq _ _ _ _ _ _) x).trans (dqBlock_emb 0 0 rfl _ _ x1 x2 x3 x4 x5 x6 x)

end Cert.Quant

end
-- ==== Proof.Spec.lean ====
/-
  The quantised linear layer as ONE function of the eight argument arrays, entry by entry, over the
  per-element law `dq` (the kernel's spelling or the reference's):

      out (t, o) = sum over k < 4096 of x (t, k) * dq (w (o, k)) (the five parameters of group (o * 4096 + k) / 128)  +  b (o).

  The parameters are [393216, 1] arrays, one entry per group of 128 consecutive weights in row-major
  order.  With `dq` the kernel's law this is what the kernel's result array holds, with the
  reference's law what the reference returns; on finite weights and parameters the two laws agree
  (`kernelDq_eq_refDq`), so the two functions do.
-/
import proofs.«136200_j53850299957966_2_alg».proof.Proof.Dequant
import Idealize.ShloMosaic.Lib.ValueIdx

noncomputable section

namespace Cert.Quant

open Idealize.ShloMosaic Idealize.ShloMosaic.ValueIdx

/-- The group of weight entry `(o, k)`, as an index of a [393216, 1] parameter array. -/
abbrev gidx (o : Fin 12288) (k : Fin 4096) : (⟨2, ![393216, 1]⟩ : Shape).Idx :=
  ix2 (⟨(o.val * 4096 + k.val) / 128, by have ho := o.isLt; have hk := k.isLt; omega⟩ : Fin 393216) (0 : Fin 1)

/-- The quantised linear layer over the per-element law `dq`. -/
def linear (dq : EReal → EReal → EReal → EReal → EReal → EReal → EReal)
    (x : (⟨2, ![16, 4096]⟩ : Shape).Idx → EReal) (w : (⟨2, ![12288, 4096]⟩ : Shape).Idx → EReal)
    (b : (⟨1, ![12288]⟩ : Shape).Idx → EReal) (s z dz lo hi : (⟨2, ![393216, 1]⟩ : Shape).Idx → EReal) :
    (⟨2, ![16, 12288]⟩ : Shape).Idx → EReal :=
  fun i => (∑ k : Fin 4096, x (ix2 (i 0) k) * dq (w (ix2 (i 1) k)) (s (gidx (i 1) k)) (z (gidx (i 1) k))
      (dz (gidx (i 1) k)) (lo (gidx (i 1) k)) (hi (gidx (i 1) k))) + b (ix1 (i 1))

/-- Every entry of the array is a real number. -/
def AllReal {s : Shape} (v : s.Idx → EReal) : Prop := ∀ i, ∃ r : ℝ, v i = (r : EReal)

/-- On finite weights and parameters the layer over the kernel's law is the layer over the reference's. -/
theorem linear_kernel_eq_ref (x : (⟨2, ![16, 4096]⟩ : Shape).Idx → EReal) (w : (⟨2, ![12288, 4096]⟩ : Shape).Idx → EReal)
    (b : (⟨1, ![12288]⟩ : Shape).Idx → EReal) (s z dz lo hi : (⟨2, ![393216, 1]⟩ : Shape).Idx → EReal)
    (hw : AllReal w) (hs : AllReal s) (hz : AllReal z) (hdz : AllReal dz) (hlo : AllReal lo) (hhi : AllReal hi) :
    linear kernelDq x w b s z dz lo hi = linear refDq x w b s z dz lo hi := by
  funext i
  unfold linear
  refine congrArg (· + _) (Finset.sum_congr rfl fun k _ => ?_)
  obtain ⟨rw, ew⟩ := hw (ix2 (i 1) k)
  obtain ⟨rs, es⟩ := hs (gidx (i 1) k)
  obtain ⟨rz, ez⟩ := hz (gidx (i 1) k)
  obtain ⟨rdz, edz⟩ := hdz (gidx (i 1) k)
  obtain ⟨rlo, elo⟩ := hlo (gidx (i 1) k)
  obtain ⟨rhi, ehi⟩ := hhi (gidx (i 1) k)
  rw [ew, es, ez, edz, elo, ehi, kernelDq_eq_refDq]

end Cert.Quant

end
-- ==== Proof.KernelArray.lean ====
/-
  From blocks to the array.  The grid has 16 steps; step `t` works on rows `768 t … 768 t + 767` of
  the weight and of the five parameter arrays (reshaped by the host from [393216, 1] to [12288, 32]:
  row `o`, column `g` is group `32 o + g`), on columns `768 t …` of the bias (reshaped to a
  [1, 12288] row), on all of the activations, and writes columns `768 t … 768 t + 767` of the
  [16, 12288] result.  What step `t` writes is block `t` of the quantised linear layer over the kernel's
  per-element law; the 16 blocks tile the result, so the result array ends holding that layer.
-/
import proofs.«136200_j53850299957966_2_alg».proof.Proof.Gen.KernelIdeal.Value
import proofs.«136200_j53850299957966_2_alg».proof.Proof.KernelBody
import proofs.«136200_j53850299957966_2_alg».proof.Proof.Spec
import Idealize.ShloMosaic.Lib.StableHlo.Run

set_option maxRecDepth 16384

noncomputable section

namespace Cert.Quant

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The printed index maps, decided over the 16 grid steps: the activations' block never moves, the row blocks of the
    weight and the parameters and the column blocks of the bias and of the result are block `t` at step `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

/-! ## The arrays the host reshaped before the region -/

theorem V_scales (c : Dev nD) : (V m c main_v0 : S12288x32.Idx → EReal)
    = shapeCast S12288x32 (m ((c : Thread nD τ).loc main_arg3)) shapeCasts_S393216x1_S12288x32 := by
  dsimp only [Gen.V, Gen.hostOps0]; after_results; rfl
theorem V_zeros (c : Dev nD) : (V m c main_v1 : S12288x32.Idx → EReal)
    = shapeCast S12288x32 (m ((c : Thread nD τ).loc main_arg4)) shapeCasts_S393216x1_S12288x32 := by
  dsimp only [Gen.V, Gen.hostOps0]; after_results; rfl
theorem V_shifts (c : Dev nD) : (V m c main_v2 : S12288x32.Idx → EReal)
    = shapeCast S12288x32 (m ((c : Thread nD τ).loc main_arg5)) shapeCasts_S393216x1_S12288x32 := by
  dsimp only [Gen.V, Gen.hostOps0]; after_results; rfl
theorem V_lo (c : Dev nD) : (V m c main_v3 : S12288x32.Idx → EReal)
    = shapeCast S12288x32 (m ((c : Thread nD τ).loc main_arg6)) shapeCasts_S393216x1_S12288x32 := by
  dsimp only [Gen.V, Gen.hostOps0]; after_results; rfl
theorem V_hi (c : Dev nD) : (V m c main_v4 : S12288x32.Idx → EReal)
    = shapeCast S12288x32 (m ((c : Thread nD τ).loc main_arg7)) shapeCasts_S393216x1_S12288x32 := by
  dsimp only [Gen.V, Gen.hostOps0]; after_results; rfl
theorem V_bias (c : Dev nD) : (V m c main_v5 : S1x12288.Idx → EReal)
    = shapeCast S1x12288 (m ((c : Thread nD τ).loc main_arg2)) shapeCasts_S12288_S1x12288 := by
  dsimp only [Gen.V, Gen.hostOps0]; after_results; rfl

/-- A [393216, 1] parameter array reshaped to [12288, 32], read at row `o`, column `g`: group `32 o + g`. -/
theorem params_apply (a : S393216x1.Idx → EReal) (y : S12288x32.Idx) (n : Fin 393216) (hn : n.val = (y 0).val * 32 + (y 1).val) :
    shapeCast S12288x32 a shapeCasts_S393216x1_S12288x32 y = a (ix2 n (0 : Fin 1)) :=
  shapeCast_apply a shapeCasts_S393216x1_S12288x32 y (ix2 n (0 : Fin 1))
    (by rewrite [Shape.rowMajor_val_two, Shape.rowMajor_val_two]; show n.val * 1 + 0 = (y 0).val * 32 + (y 1).val; omega)

/-- The bias reshaped to a [1, 12288] row, read at column `q`. -/
theorem bias_apply (a : S12288.Idx → EReal) (y : S1x12288.Idx) (n : Fin 12288) (hn : n.val = (y 1).val) :
    shapeCast S1x12288 a shapeCasts_S12288_S1x12288 y = a (ix1 n) :=
  shapeCast_apply a shapeCasts_S12288_S1x12288 y (ix1 n)
    (by rewrite [Shape.rowMajor_val_one, Shape.rowMajor_val_two]
        have h0 : (y 0).val < 1 := (y 0).isLt
        show n.val = (y 0).val * 12288 + (y 1).val; omega)

/-! ## One entry of one step's block -/

/-- Entry `(p, q)` of the block a step computes from its eight input blocks `b0 … b7` is entry `(p, T * 768 + q)` of the
    layer, when the blocks are the arrays' blocks of step `T` (`h0 … h7`). -/
theorem block_entry (A0 : S16x4096.Idx → EReal) (A1 : S12288x4096.Idx → EReal) (a2 : S12288.Idx → EReal)
    (a3 a4 a5 a6 a7 : S393216x1.Idx → EReal)
    (b0 : S16x4096.Idx → EReal) (b1 : S768x4096.Idx → EReal) (b2 b3 b4 b5 b6 : S768x32.Idx → EReal) (b7 : S1x768.Idx → EReal)
    (T : Nat) (hT : T < 16) (p : Fin 16) (q : Fin 768)
    (h0 : ∀ (p : Fin 16) (k : Fin 4096), b0 (ix2 p k) = A0 (ix2 p k))
    (h1 : ∀ (q : Fin 768) (k : Fin 4096), b1 (ix2 q k) = A1 (ix2 (⟨T * 768 + q.val, by have := q.isLt; omega⟩ : Fin 12288) k))
    (h2 : ∀ (q : Fin 768) (g : Fin 32), b2 (ix2 q g) = a3 (ix2 (⟨(T * 768 + q.val) * 32 + g.val, by have := q.isLt; have := g.isLt; omega⟩ : Fin 393216) (0 : Fin 1)))
    (h3 : ∀ (q : Fin 768) (g : Fin 32), b3 (ix2 q g) = a4 (ix2 (⟨(T * 768 + q.val) * 32 + g.val, by have := q.isLt; have := g.isLt; omega⟩ : Fin 393216) (0 : Fin 1)))
    (h4 : ∀ (q : Fin 768) (g : Fin 32), b4 (ix2 q g) = a5 (ix2 (⟨(T * 768 + q.val) * 32 + g.val, by have := q.isLt; have := g.isLt; omega⟩ : Fin 393216) (0 : Fin 1)))
    (h5 : ∀ (q : Fin 768) (g : Fin 32), b5 (ix2 q g) = a6 (ix2 (⟨(T * 768 + q.val) * 32 + g.val, by have := q.isLt; have := g.isLt; omega⟩ : Fin 393216) (0 : Fin 1)))
    (h6 : ∀ (q : Fin 768) (g : Fin 32), b6 (ix2 q g) = a7 (ix2 (⟨(T * 768 + q.val) * 32 + g.val, by have := q.isLt; have := g.isLt; omega⟩ : Fin 393216) (0 : Fin 1)))
    (h7 : ∀ q : Fin 768, b7 (ix2 (0 : Fin 1) q) = a2 (ix1 (⟨T * 768 + q.val, by have := q.isLt; omega⟩ : Fin 12288))) :
    bodyVal b0 b1 b2 b3 b4 b5 b6 b7 (ix2 p q)
      = linear kernelDq A0 A1 a2 a3 a4 a5 a6 a7 (ix2 p (⟨T * 768 + q.val, by have := q.isLt; omega⟩ : Fin 12288)) := by
  have hq : q.val < 768 := q.isLt
  unfold bodyVal linear
  show (∑ k : Fin 4096, b0 (ix2 p k) * wdqBlk b1 b2 b3 b4 b5 b6 (ix2 q k)) + b7 (ix2 (0 : Fin 1) q)
      = (∑ k : Fin 4096, A0 (ix2 p k) * kernelDq (A1 (ix2 (⟨T * 768 + q.val, by omega⟩ : Fin 12288) k))
          (a3 (gidx (⟨T * 768 + q.val, by omega⟩ : Fin 12288) k)) (a4 (gidx (⟨T * 768 + q.val, by omega⟩ : Fin 12288) k))
          (a5 (gidx (⟨T * 768 + q.val, by omega⟩ : Fin 12288) k)) (a6 (gidx (⟨T * 768 + q.val, by omega⟩ : Fin 12288) k))
          (a7 (gidx (⟨T * 768 + q.val, by omega⟩ : Fin 12288) k))) + a2 (ix1 (⟨T * 768 + q.val, by omega⟩ : Fin 12288))
  rw [h7]
  refine congrArg (· + _) (Finset.sum_congr rfl fun k _ => ?_)
  have hk : k.val < 4096 := k.isLt
  have eg : gidx (⟨T * 768 + q.val, by omega⟩ : Fin 12288) k
      = ix2 (⟨(T * 768 + q.val) * 32 + k.val / 128, by omega⟩ : Fin 393216) (0 : Fin 1) :=
    funext fun a => Fin.ext (by
      match a with
      | ⟨0, _⟩ => show ((T * 768 + q.val) * 4096 + k.val) / 128 = (T * 768 + q.val) * 32 + k.val / 128; omega
      | ⟨1, _⟩ => rfl)
  unfold wdqBlk
  show b0 (ix2 p k) * kernelDq (b1 (ix2 q k))
      (b2 (ix2 q (⟨k.val / 128, by omega⟩ : Fin 32))) (b3 (ix2 q (⟨k.val / 128, by omega⟩ : Fin 32)))
      (b4 (ix2 q (⟨k.val / 128, by omega⟩ : Fin 32))) (b5 (ix2 q (⟨k.val / 128, by omega⟩ : Fin 32)))
      (b6 (ix2 q (⟨k.val / 128, by omega⟩ : Fin 32))) = _
  rw [h0, h1, h2, h3, h4, h5, h6, eg]

/-! ## What a step writes back, the cover, the array -/

/-- WHAT STEP `t` WRITES BACK is block `t` of the layer over the kernel's law, of the argument arrays. -/
theorem flushed_eq (c : Dev nD) (t : Fin cfg0.N) :
    (dats m 0 c).flushed 8 t = ((cfg0.win 8).blk t).view.read (Elt Ideal) (linear kernelDq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KernelIdeal.Value.flushed8_A, out_eq]
  obtain ⟨a00, a01, a10, a11, a20, a21, a30, a31, a40, a41, a50, a51, a60, a61, a70, a71, a80, a81⟩ := idx_facts t
  have ht : t.val < 16 := lt_of_lt_of_eq t.isLt N_0
  funext j
  obtain ⟨p, q, rfl⟩ : ∃ (p : Fin 16) (q : Fin 768), j = ix2 p q := ⟨j 0, j 1, eq_ix2 j⟩
  have hq : q.val < 768 := q.isLt
  have eJ : ((cfg0.win 8).blk t).view.emb (ix2 p q) = ix2 p (⟨t.val * 768 + q.val, by omega⟩ : Fin 12288) :=
    funext fun a => Fin.ext (by
      match a with
      | ⟨0, _⟩ => show win0_8.index t (0 : Fin 2) * 16 + 1 * p.val = p.val; omega
      | ⟨1, _⟩ => show win0_8.index t (1 : Fin 2) * 768 + 1 * q.val = t.val * 768 + q.val; omega)
  show bodyVal (iblk m c 0 t) (iblk m c 1 t) (iblk m c 2 t) (iblk m c 3 t) (iblk m c 4 t) (iblk m c 5 t) (iblk m c 6 t) (iblk m c 7 t) (ix2 p q)
      = (linear kernelDq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (((cfg0.win 8).blk t).view.emb (ix2 p q))
  rw [eJ]
  refine block_entry _ _ _ _ _ _ _ _ _ _ _ _ _ _ _ _ t.val ht p q ?_ ?_ ?_ ?_ ?_ ?_ ?_ ?_
  · intro p k
    show V m c main_arg0 (((cfg0.win 0).blk t).view.emb (ix2 p k)) = _
    rw [V_main_arg0]
    refine congrArg _ (funext fun a => Fin.ext ?_)
    match a with
    | ⟨0, _⟩ => show win0_0.index t (0 : Fin 2) * 16 + 1 * p.val = p.val; omega
    | ⟨1, _⟩ => show win0_0.index t (1 : Fin 2) * 4096 + 1 * k.val = k.val; omega
  · intro q k
    show V m c main_arg1 (((cfg0.win 1).blk t).view.emb (ix2 q k)) = _
    rw [V_main_arg1]
    refine congrArg _ (funext fun a => Fin.ext ?_)
    match a with
    | ⟨0, _⟩ => show win0_1.index t (0 : Fin 2) * 768 + 1 * q.val = t.val * 768 + q.val; omega
    | ⟨1, _⟩ => show win0_1.index t (1 : Fin 2) * 4096 + 1 * k.val = k.val; omega
  · intro q g
    show V m c main_v0 (((cfg0.win 2).blk t).view.emb (ix2 q g)) = _
    rw [V_scales]
    exact params_apply _ _ _ (by
      show (t.val * 768 + q.val) * 32 + g.val = (win0_2.index t (0 : Fin 2) * 768 + 1 * q.val) * 32 + (win0_2.index t (1 : Fin 2) * 32 + 1 * g.val)
      omega)
  · intro q g
    show V m c main_v1 (((cfg0.win 3).blk t).view.emb (ix2 q g)) = _
    rw [V_zeros]
    exact params_apply _ _ _ (by
      show (t.val * 768 + q.val) * 32 + g.val = (win0_3.index t (0 : Fin 2) * 768 + 1 * q.val) * 32 + (win0_3.index t (1 : Fin 2) * 32 + 1 * g.val)
      omega)
  · intro q g
    show V m c main_v2 (((cfg0.win 4).blk t).view.emb (ix2 q g)) = _
    rw [V_shifts]
    exact params_apply _ _ _ (by
      show (t.val * 768 + q.val) * 32 + g.val = (win0_4.index t (0 : Fin 2) * 768 + 1 * q.val) * 32 + (win0_4.index t (1 : Fin 2) * 32 + 1 * g.val)
      omega)
  · intro q g
    show V m c main_v3 (((cfg0.win 5).blk t).view.emb (ix2 q g)) = _
    rw [V_lo]
    exact params_apply _ _ _ (by
      show (t.val * 768 + q.val) * 32 + g.val = (win0_5.index t (0 : Fin 2) * 768 + 1 * q.val) * 32 + (win0_5.index t (1 : Fin 2) * 32 + 1 * g.val)
      omega)
  · intro q g
    show V m c main_v4 (((cfg0.win 6).blk t).view.emb (ix2 q g)) = _
    rw [V_hi]
    exact params_apply _ _ _ (by
      show (t.val * 768 + q.val) * 32 + g.val = (win0_6.index t (0 : Fin 2) * 768 + 1 * q.val) * 32 + (win0_6.index t (1 : Fin 2) * 32 + 1 * g.val)
      omega)
  · intro q
    show V m c main_v5 (((cfg0.win 7).blk t).view.emb (ix2 (0 : Fin 1) q)) = _
    rw [V_bias]
    exact bias_apply _ _ _ (by
      show t.val * 768 + q.val = win0_7.index t (1 : Fin 2) * 768 + 1 * q.val
      omega)

/-- An index of the result is in step `t`'s block iff each coordinate is in the block's range on its axis. -/
theorem mem_blk (t : Fin cfg0.N) (i : S16x12288.Idx) :
    i ∈ ((cfg0.win 8).blk t).view.set ↔ ∀ a : Fin 2, win0_8.index t a * S16x768.size a ≤ (i a).val
      ∧ (i a).val < win0_8.index t a * S16x768.size a + S16x768.size a := by
  show i ∈ ((View.whole main_v6).slice (win0_8.rect t)).set ↔ _
  rw [View.set_slice_whole, Rect.mem_set_unit]
  exact Iff.rfl

/-- The 16 column blocks tile the result: column `n` lies in step `n / 768`'s block. -/
theorem cover (i : S16x12288.Idx) :
    ∃ t : Fin cfg0.N, (cfg0.win 8).flush t = true ∧ i ∈ ((cfg0.win 8).blk t).view.set := by
  have hi0 : (i 0).val < 16 := (i 0).isLt
  have hi1 : (i 1).val < 12288 := (i 1).isLt
  have hN : (i 1).val / 768 < cfg0.N := lt_of_lt_of_eq (by omega : (i 1).val / 768 < 16) N_0.symm
  obtain ⟨-, -, -, -, -, -, -, -, -, -, -, -, -, -, -, -, a80, a81⟩ := idx_facts ⟨(i 1).val / 768, hN⟩
  have a81' : win0_8.index ⟨(i 1).val / 768, hN⟩ (1 : Fin 2) = (i 1).val / 768 := a81
  refine ⟨⟨(i 1).val / 768, hN⟩, flush0_8 _, ?_⟩
  rw [mem_blk]
  intro a
  match a with
  | ⟨0, _⟩ =>
    show win0_8.index ⟨(i 1).val / 768, hN⟩ (0 : Fin 2) * 16 ≤ (i 0).val ∧ (i 0).val < win0_8.index ⟨(i 1).val / 768, hN⟩ (0 : Fin 2) * 16 + 16
    omega
  | ⟨1, _⟩ =>
    show win0_8.index ⟨(i 1).val / 768, hN⟩ (1 : Fin 2) * 768 ≤ (i 1).val ∧ (i 1).val < win0_8.index ⟨(i 1).val / 768, hN⟩ (1 : Fin 2) * 768 + 768
    omega

/-- THE RESULT ARRAY after the run is the layer over the kernel's law, of the argument arrays. -/
theorem final (c : Dev nD) : (dats m 0 c).arrAt 8 cfg0.N = linear kernelDq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed_eq m c t) cover

/-- The kernel's run, read: the result at the layer over the kernel's law, the arguments unchanged. -/
theorem kernel_run : θ_run defs (onTc (τ := τ) (main (F := Ideal))) ⟨m, fun _ => 0, ρ⟩ fun r => ∀ c : Dev nD,
      r.2.mem ((c : Thread nD τ).loc main_v6) = linear kernelDq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.Quant

end
-- ==== Proof.RefValue.lean ====
/-
  The reference's result is the quantised linear layer over the reference's per-element law.  Its
  host program reshapes the weight to [393216, 128] (one row per group), computes the fake-quantised
  weight there against the [393216, 1] parameters spread along each row, reshapes back to
  [12288, 4096], contracts with the activations over the last axis of both, and adds the bias spread
  over the 16 rows.  Entry `(a, b)` of the reshaped weight is entry `(o, k)` of the weight with
  `o * 4096 + k = a * 128 + b`; read back at `(o, k)` the group row is `a = (o * 4096 + k) / 128`.
-/
import proofs.«136200_j53850299957966_2_alg».proof.Proof.Gen.ReferenceIdeal.Read
import proofs.«136200_j53850299957966_2_alg».proof.Proof.Spec

noncomputable section

namespace Cert.Quant

open Cert.ReferenceIdeal Cert.ReferenceIdeal.Read Idealize.ShloMosaic Idealize.ShloMosaic.ValueIdx

/-- The fake-quantised weight in its [393216, 128] layout, read at an entry: the reference's law of the weight entry
    with the same row-major position and of the row's parameters. -/
theorem ref_group_apply (x1 : (⟨S12288x4096, .f32⟩ : BufTy).Contents (Elt Ideal))
    (x3 x4 x5 x6 x7 : (⟨S393216x1, .f32⟩ : BufTy).Contents (Elt Ideal)) (a : S393216x128.Idx) :
    val_main_v23 (F := Ideal) x1 x3 x4 x5 x6 x7 a
      = refDq (x1 (idx_main_v3 a)) (x3 (idx_main_v4 a)) (x4 (idx_main_v4 a)) (x5 (idx_main_v4 a)) (x6 (idx_main_v4 a))
          (x7 (idx_main_v4 a)) := by
  simp only [val_main_v23_apply, val_main_v22_apply, val_main_v21_apply, val_main_v20_apply, val_main_v19_apply, val_main_v18_apply, val_main_v17_apply, val_main_v16_apply, val_main_v15_apply, val_main_call3_v0_apply, val_main_v14_apply, val_main_v13_apply, val_main_v12_apply, val_main_v11_apply, val_main_call2_v4_apply, val_main_call2_v3_apply, val_main_call2_v2_apply, val_main_call2_v1_apply, val_main_call2_v0_apply, val_main_cst_apply, val_main_cst_0_apply, val_main_v10_apply, val_main_v9_apply, val_main_v8_apply, val_main_v7_apply, val_main_v6_apply, val_main_v5_apply, val_main_v4_apply, val_main_v3_apply, val_main_v2_apply, val_main_v1_apply, val_main_v0_apply, val_main_call0_v0_apply]
  rfl

/-- The reference's result array is the layer over the reference's law. -/
theorem ref_eq (x0 : (⟨S16x4096, .f32⟩ : BufTy).Contents (Elt Ideal)) (x1 : (⟨S12288x4096, .f32⟩ : BufTy).Contents (Elt Ideal))
    (x2 : (⟨S12288, .f32⟩ : BufTy).Contents (Elt Ideal)) (x3 x4 x5 x6 x7 : (⟨S393216x1, .f32⟩ : BufTy).Contents (Elt Ideal)) :
    val_main_v28 (F := Ideal) x0 x1 x2 x3 x4 x5 x6 x7 = linear refDq x0 x1 x2 x3 x4 x5 x6 x7 := by
  funext i
  rw [val_main_v28_apply, val_main_v25_apply, val_main_v27_apply, val_main_v26_apply]
  unfold linear
  have eb : idx_main_v26 (idx_main_v27 i) = ix1 (i 1) := funext fun a => Fin.ext (by match a with | ⟨0, _⟩ => rfl)
  rw [eb]
  refine congrArg (· + _) (Finset.sum_congr rfl fun k _ => ?_)
  have el : lidx_main_v25 i k = ix2 (i 0) k := funext fun a => Fin.ext (by match a with | ⟨0, _⟩ => rfl | ⟨1, _⟩ => rfl)
  have ew : idx_main_v3 (idx_main_v24 (ridx_main_v25 i k)) = ix2 (i 1) k := funext fun a => Fin.ext (by
    have ho : (i 1).val < 12288 := (i 1).isLt
    have hk : k.val < 4096 := k.isLt
    match a with
    | ⟨0, _⟩ =>
      show (((i 1).val * 4096 + k.val) / 128 * 128 + ((i 1).val * 4096 + k.val) % 128) / 4096 = (i 1).val
      omega
    | ⟨1, _⟩ =>
      show (((i 1).val * 4096 + k.val) / 128 * 128 + ((i 1).val * 4096 + k.val) % 128) % 4096 = k.val
      omega)
  have eg : idx_main_v4 (idx_main_v24 (ridx_main_v25 i k)) = gidx (i 1) k := funext fun a => Fin.ext (by
    match a with | ⟨0, _⟩ => rfl | ⟨1, _⟩ => rfl)
  rw [el, val_main_v24_apply, ref_group_apply, ew, eg]
  rfl

end Cert.Quant

end
-- ==== Proof.Finite.lean ====
/-
  What the precondition says.  `finite_inputs` is the conjunction, over the eight argument arrays, of
  "every entry's absolute value is below +inf"; an extended real whose absolute value is below
  `⊤` is neither `⊤` nor `⊥`, so it is a real number.  The equivalence of the two programs
  uses this of the weight and of the five parameter arrays (the straight-through forms and the
  reciprocal are laws of real numbers); the activations and the bias may be anything.
-/
import proofs.«136200_j53850299957966_2_alg».proof.Pre_finite_inputs
import proofs.«136200_j53850299957966_2_alg».proof.Proof.Spec
import Idealize.ShloMosaic.Lib.ReduceAll
import Idealize.ShloMosaic.Lib.Affine
import Idealize.ShloMosaic.PureOps.Ideal.Laws

noncomputable section

namespace Cert.Quant

open Idealize.ShloMosaic Idealize.ShloMosaic.ValueIdx

/-- An extended real whose absolute value is below the f32 word of +inf is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

instance : Subsingleton (⟨0, ![]⟩ : Shape).Idx := ⟨fun a b => funext fun d => d.elim0⟩

/-- `jnp.all(|v| < inf)` holding says every entry of `v` is real. -/
theorem allReal_of_all {s : Shape} {axes : List (Fin s.rank)} (v : s.Idx → EReal)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf (F := Ideal) .olt (Host.absf (φ := .f32) v)
        (broadcastInDim s ![] hb (constant (F := Ideal) ⟨0, ![]⟩ .f32 0x7F800000#32)))
        (constantI ⟨0, ![]⟩ 1 1#1) hr hu ix0 = 1#1) : AllReal v := fun i =>
  real_of_abs_lt_inf (v i) (Host.reduce_andi_all _ _ hr hu ix0 h i)

variable [Cert.Pre_finite_inputs.Facts]

open Cert.Pre_finite_inputs in
/-- Under the precondition the weight and the five parameter arrays hold real numbers. -/
theorem allReal_of_pre (a0 : FVec Ideal S16x4096 .f32) (a1 : FVec Ideal S12288x4096 .f32) (a2 : FVec Ideal S12288 .f32)
    (a3 a4 a5 a6 a7 : FVec Ideal S393216x1 .f32)
    (h : Cert.Pre_finite_inputs.fn (F := Ideal) a0 a1 a2 a3 a4 a5 a6 a7 = fun _ => 1#1) :
    AllReal a1 ∧ AllReal a3 ∧ AllReal a4 ∧ AllReal a5 ∧ AllReal a6 ∧ AllReal a7 := by
  have h0 := congrFun h ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨-, h1⟩, -⟩, h3⟩, h4⟩, h5⟩, h6⟩, h7⟩ := h0
  exact ⟨allReal_of_all a1 _ _ _ h1, allReal_of_all a3 _ _ _ h3, allReal_of_all a4 _ _ _ h4, allReal_of_all a5 _ _ _ h5,
    allReal_of_all a6 _ _ _ h6, allReal_of_all a7 _ _ _ h7⟩

end Cert.Quant

end
-- ==== Proof.lean ====
/-
  A fake-quantised linear layer: per group of 128 weights (a scale `s`, a zero point `z`, a zero-point
  shift `dz`, and clamp bounds `lo`, `hi` for the scale),

      c = clip(s, lo, hi),   w_dq = (clip(round(w / c + z), 0, 15) - z) * c - clip(dz, -c, c),
      out = x · w_dq^T + b.

  The kernel computes it in 16 grid steps of 768 output columns; inside a step it fills a scratch
  buffer with `w_dq` for the step's 768 weight rows, group by group, multiplying by ONE reciprocal `1 / c`
  per group, and then contracts the activations with the scratch buffer and adds the bias.  The
  reference divides by `c`, and spells every clip and the rounding in the straight-through form
  `a + (f a - a)`.

  The proof, module by module:
  * Dequant — the two per-element laws and their equality on real numbers (the straight-through form is
    `f a`; for `c ≠ 0` the reciprocal's product is the quotient; for `c = 0` both results are `0`).
  * Block, Groups — each of the 32 values the kernel body stores into its scratch buffer is the
    kernel's law of its loads, entry by entry.
  * KernelBody — the 32 stores tile the scratch buffer, so one step's output block is the matrix
    product of the activations with the dequantised weight rows, plus the bias.
  * KernelArray — the 16 steps' blocks tile the result; the host's reshapes of the parameters put group
    `32 o + g` at row `o`, column `g`; the result array is the layer over the kernel's law.
  * RefValue — the reference's result is the layer over the reference's law.
  * Finite — the precondition makes the weight and the parameters real numbers.
  * Spec — the layer, and that on real weights and parameters the two laws give one layer.
  The activations and the bias may be any extended reals: both programs form the same sums of the same
  products.  The kernel was not rewritten when it was idealised, so there is nothing to preserve.
-/
import proofs.«136200_j53850299957966_2_alg».proof.Defs
import proofs.«136200_j53850299957966_2_alg».proof.Proof.Gen.Kernel
import proofs.«136200_j53850299957966_2_alg».proof.Proof.Gen.Kernel.Skeleton
import proofs.«136200_j53850299957966_2_alg».proof.Proof.Gen.Kernel.Launch
import proofs.«136200_j53850299957966_2_alg».proof.Proof.Gen.Kernel.Points
import proofs.«136200_j53850299957966_2_alg».proof.Proof.Gen.Kernel.Frame
import proofs.«136200_j53850299957966_2_alg».proof.Proof.Gen.KernelIdeal
import proofs.«136200_j53850299957966_2_alg».proof.Proof.Gen.KernelIdeal.Skeleton
import proofs.«136200_j53850299957966_2_alg».proof.Proof.Gen.KernelIdeal.Launch
import proofs.«136200_j53850299957966_2_alg».proof.Proof.Gen.KernelIdeal.Points
import proofs.«136200_j53850299957966_2_alg».proof.Proof.Gen.KernelIdeal.Frame
import proofs.«136200_j53850299957966_2_alg».proof.Proof.Gen.ReferenceIdeal
import proofs.«136200_j53850299957966_2_alg».proof.Proof.Gen.Pre_finite_inputs
import proofs.«136200_j53850299957966_2_alg».proof.Proof.Gen.KernelIdeal.Value
import proofs.«136200_j53850299957966_2_alg».proof.Proof.Gen.ReferenceIdeal.Run
import proofs.«136200_j53850299957966_2_alg».proof.Proof.Gen.ReferenceIdeal.Read
import proofs.«136200_j53850299957966_2_alg».proof.Proof.KernelArray
import proofs.«136200_j53850299957966_2_alg».proof.Proof.RefValue
import proofs.«136200_j53850299957966_2_alg».proof.Proof.Finite
import Idealize.ShloMosaic.Adequacy
import Idealize.ShloMosaic.Init

noncomputable section

namespace Cert.Proof

open Idealize.ShloMosaic Idealize.ShloMosaic.TcCoe Idealize.SL.Sem

/-- The kernel at the word level runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a host program: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the layer over the kernel's law, of the kernel's arguments: the kernel by its run; the
    reference with the layer over its own law, of arguments that agree, and the precondition makes the weight and the
    parameters real, where the two laws are one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Quant.linear Cert.Quant.kernelDq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.Quant.kernel_run m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5, e6, e7⟩ := hagree c
  obtain ⟨hw, hs, hz, hdz, hlo, hhi⟩ := Cert.Quant.allReal_of_pre _ _ _ _ _ _ _ _ (hpre c)
  rw [(h c).1, Cert.ReferenceIdeal.Read.val_main_v28_eq, Cert.Quant.ref_eq, e0, e1, e2, e3, e4, e5, e6, e7]
  exact (Cert.Quant.linear_kernel_eq_ref _ _ _ _ _ _ _ _ hw hs hz hdz hlo hhi).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
